-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x512x512 : Shape := ⟨4, ![32, 4, 512, 512]⟩
abbrev S4x1x3x3 : Shape := ⟨4, ![4, 1, 3, 3]⟩
abbrev S_ : Shape := ⟨0, ![]⟩

class Facts : Prop where
  bcast_S_S32x4x512x512 : S_.BroadcastsInDim S32x4x512x512 (![] : Fin 0 → Fin S32x4x512x512.rank)
  reducesTo_S32x4x512x512_S_d0_1_2_3 : S32x4x512x512.ReducesTo [0, 1, 2, 3] S_
  h_S_ : 0 < S_.numel
  bcast_S_S4x1x3x3 : S_.BroadcastsInDim S4x1x3x3 (![] : Fin 0 → Fin S4x1x3x3.rank)
  reducesTo_S4x1x3x3_S_d0_1_2_3 : S4x1x3x3.ReducesTo [0, 1, 2, 3] S_

variable [Facts]

def fn {F : FTy → Type} [FloatOps F] (main_arg0 : FVec F S32x4x512x512 .f32) (main_arg1 : FVec F S4x1x3x3 .f32) : IVec S_ 1 :=
  let main_v0 : FVec F S32x4x512x512 .f32 := Host.absf main_arg0
  let main_cst : FVec F S_ .f32 := constant S_ .f32 0x7F800000#32
  let main_v1 : FVec F S32x4x512x512 .f32 := broadcastInDim S32x4x512x512 ![] bcast_S_S32x4x512x512 main_cst
  let main_v2 : IVec S32x4x512x512 1 := cmpf .olt main_v0 main_v1
  let main_c : IVec S_ 1 := constantI S_ 1 1#1
  let main_v3 : IVec S_ 1 := (fun x v => Host.reduce IntOp.andi x v reducesTo_S32x4x512x512_S_d0_1_2_3 h_S_) main_v2 main_c
  let main_v4 : FVec F S4x1x3x3 .f32 := Host.absf main_arg1
  let main_cst_0 : FVec F S_ .f32 := constant S_ .f32 0x7F800000#32
  let main_v5 : FVec F S4x1x3x3 .f32 := broadcastInDim S4x1x3x3 ![] bcast_S_S4x1x3x3 main_cst_0
  let main_v6 : IVec S4x1x3x3 1 := cmpf .olt main_v4 main_v5
  let main_c_1 : IVec S_ 1 := constantI S_ 1 1#1
  let main_v7 : IVec S_ 1 := (fun x v => Host.reduce IntOp.andi x v reducesTo_S4x1x3x3_S_d0_1_2_3 h_S_) main_v6 main_c_1
  let main_v8 : IVec S_ 1 := andi main_v3 main_v7
  main_v8
-- ==== Kernel.lean ====
abbrev S32x4x512x512 : Shape := ⟨4, ![32, 4, 512, 512]⟩
abbrev S4x1x3x3 : Shape := ⟨4, ![4, 1, 3, 3]⟩
abbrev S1x4x512x512 : Shape := ⟨4, ![1, 4, 512, 512]⟩
abbrev S528x768 : Shape := ⟨2, ![528, 768]⟩
abbrev S1x1x512x512 : Shape := ⟨4, ![1, 1, 512, 512]⟩
abbrev S512x512 : Shape := ⟨2, ![512, 512]⟩
abbrev S514x512 : Shape := ⟨2, ![514, 512]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x4x512x512, .f32⟩
  | .hbm, ⟨1, _⟩ => ⟨S4x1x3x3, .f32⟩
  | .hbm, ⟨2, _⟩ => ⟨S32x4x512x512, .f32⟩
  | .local _ .vmem, ⟨0, _⟩ => ⟨S1x4x512x512, .f32⟩
  | .local _ .vmem, ⟨1, _⟩ => ⟨S1x4x512x512, .f32⟩
  | .local _ .vmem, ⟨2, _⟩ => ⟨S4x1x3x3, .f32⟩
  | .local _ .vmem, ⟨3, _⟩ => ⟨S1x4x512x512, .f32⟩
  | .local _ .vmem, ⟨4, _⟩ => ⟨S1x4x512x512, .f32⟩
  | .local _ .vmem, ⟨5, _⟩ => ⟨S528x768, .f32⟩
  | _, _ => ⟨S32x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S528x768_S528x768_0_0 : ∀ a, (![0, 0] : Fin 2 → Nat) a + S528x768.size a ≤ S528x768.size a
  h_S528x768 : 0 < S528x768.numel
  shapeCasts_S528x768_S528x768 : S528x768.ShapeCasts S528x768
  inb_S1x4x512x512_S1x1x512x512_0_0_0_0 : ∀ a, (![0, 0, 0, 0] : Fin 4 → Nat) a + S1x1x512x512.size a ≤ S1x4x512x512.size a
  h_S1x1x512x512 : 0 < S1x1x512x512.numel
  shapeCasts_S1x1x512x512_S512x512 : S1x1x512x512.ShapeCasts S512x512
  inb_S528x768_S512x512_8_128 : ∀ a, (![8, 128] : Fin 2 → Nat) a + S512x512.size a ≤ S528x768.size a
  h_S512x512 : 0 < S512x512.numel
  shapeCasts_S512x512_S512x512 : S512x512.ShapeCasts S512x512
  inb_S528x768_S514x512_7_127 : ∀ a, (![7, 127] : Fin 2 → Nat) a + S514x512.size a ≤ S528x768.size a
  h_S514x512 : 0 < S514x512.numel
  inb_S4x1x3x3_S1x1x1x1_0_0_0_0 : ∀ a, (![0, 0, 0, 0] : Fin 4 → Nat) a + S1x1x1x1.size a ≤ S4x1x3x3.size a
  h_S1x1x1x1 : 0 < S1x1x1x1.numel
  inpos_S1x1x1x1_p0_0_0_0 : ∀ a, (![0, 0, 0, 0] : Fin 4 → Nat) a < S1x1x1x1.size a
  slices_S514x512_o0_0_S512x512 : S514x512.Slices ![0, 0] S512x512
  inb_S4x1x3x3_S1x1x1x1_0_0_1_0 : ∀ a, (![0, 0, 1, 0] : Fin 4 → Nat) a + S1x1x1x1.size a ≤ S4x1x3x3.size a
  slices_S514x512_o1_0_S512x512 : S514x512.Slices ![1, 0] S512x512
  inb_S4x1x3x3_S1x1x1x1_0_0_2_0 : ∀ a, (![0, 0, 2, 0] : Fin 4 → Nat) a + S1x1x1x1.size a ≤ S4x1x3x3.size a
  slices_S514x512_o2_0_S512x512 : S514x512.Slices ![2, 0] S512x512
  inb_S528x768_S514x512_7_128 : ∀ a, (![7, 128] : Fin 2 → Nat) a + S514x512.size a ≤ S528x768.size a
  inb_S4x1x3x3_S1x1x1x1_0_0_0_1 : ∀ a, (![0, 0, 0, 1] : Fin 4 → Nat) a + S1x1x1x1.size a ≤ S4x1x3x3.size a
  inb_S4x1x3x3_S1x1x1x1_0_0_1_1 : ∀ a, (![0, 0, 1, 1] : Fin 4 → Nat) a + S1x1x1x1.size a ≤ S4x1x3x3.size a
  inb_S4x1x3x3_S1x1x1x1_0_0_2_1 : ∀ a, (![0, 0, 2, 1] : Fin 4 → Nat) a + S1x1x1x1.size a ≤ S4x1x3x3.size a
  inb_S528x768_S514x512_7_129 : ∀ a, (![7, 129] : Fin 2 → Nat) a + S514x512.size a ≤ S528x768.size a
  inb_S4x1x3x3_S1x1x1x1_0_0_0_2 : ∀ a, (![0, 0, 0, 2] : Fin 4 → Nat) a + S1x1x1x1.size a ≤ S4x1x3x3.size a
  inb_S4x1x3x3_S1x1x1x1_0_0_1_2 : ∀ a, (![0, 0, 1, 2] : Fin 4 → Nat) a + S1x1x1x1.size a ≤ S4x1x3x3.size a
  inb_S4x1x3x3_S1x1x1x1_0_0_2_2 : ∀ a, (![0, 0, 2, 2] : Fin 4 → Nat) a + S1x1x1x1.size a ≤ S4x1x3x3.size a
  shapeCasts_S512x512_S1x1x512x512 : S512x512.ShapeCasts S1x1x512x512
  inb_S1x4x512x512_S1x1x512x512_0_1_0_0 : ∀ a, (![0, 1, 0, 0] : Fin 4 → Nat) a + S1x1x512x512.size a ≤ S1x4x512x512.size a
  inb_S4x1x3x3_S1x1x1x1_1_0_0_0 : ∀ a, (![1, 0, 0, 0] : Fin 4 → Nat) a + S1x1x1x1.size a ≤ S4x1x3x3.size a
  inb_S4x1x3x3_S1x1x1x1_1_0_1_0 : ∀ a, (![1, 0, 1, 0] : Fin 4 → Nat) a + S1x1x1x1.size a ≤ S4x1x3x3.size a
  inb_S4x1x3x3_S1x1x1x1_1_0_2_0 : ∀ a, (![1, 0, 2, 0] : Fin 4 → Nat) a + S1x1x1x1.size a ≤ S4x1x3x3.size a
  inb_S4x1x3x3_S1x1x1x1_1_0_0_1 : ∀ a, (![1, 0, 0, 1] : Fin 4 → Nat) a + S1x1x1x1.size a ≤ S4x1x3x3.size a
  inb_S4x1x3x3_S1x1x1x1_1_0_1_1 : ∀ a, (![1, 0, 1, 1] : Fin 4 → Nat) a + S1x1x1x1.size a ≤ S4x1x3x3.size a
  inb_S4x1x3x3_S1x1x1x1_1_0_2_1 : ∀ a, (![1, 0, 2, 1] : Fin 4 → Nat) a + S1x1x1x1.size a ≤ S4x1x3x3.size a
  inb_S4x1x3x3_S1x1x1x1_1_0_0_2 : ∀ a, (![1, 0, 0, 2] : Fin 4 → Nat) a + S1x1x1x1.size a ≤ S4x1x3x3.size a
  inb_S4x1x3x3_S1x1x1x1_1_0_1_2 : ∀ a, (![1, 0, 1, 2] : Fin 4 → Nat) a + S1x1x1x1.size a ≤ S4x1x3x3.size a
  inb_S4x1x3x3_S1x1x1x1_1_0_2_2 : ∀ a, (![1, 0, 2, 2] : Fin 4 → Nat) a + S1x1x1x1.size a ≤ S4x1x3x3.size a
  inb_S1x4x512x512_S1x1x512x512_0_2_0_0 : ∀ a, (![0, 2, 0, 0] : Fin 4 → Nat) a + S1x1x512x512.size a ≤ S1x4x512x512.size a
  inb_S4x1x3x3_S1x1x1x1_2_0_0_0 : ∀ a, (![2, 0, 0, 0] : Fin 4 → Nat) a + S1x1x1x1.size a ≤ S4x1x3x3.size a
  inb_S4x1x3x3_S1x1x1x1_2_0_1_0 : ∀ a, (![2, 0, 1, 0] : Fin 4 → Nat) a + S1x1x1x1.size a ≤ S4x1x3x3.size a
  inb_S4x1x3x3_S1x1x1x1_2_0_2_0 : ∀ a, (![2, 0, 2, 0] : Fin 4 → Nat) a + S1x1x1x1.size a ≤ S4x1x3x3.size a
  inb_S4x1x3x3_S1x1x1x1_2_0_0_1 : ∀ a, (![2, 0, 0, 1] : Fin 4 → Nat) a + S1x1x1x1.size a ≤ S4x1x3x3.size a
  inb_S4x1x3x3_S1x1x1x1_2_0_1_1 : ∀ a, (![2, 0, 1, 1] : Fin 4 → Nat) a + S1x1x1x1.size a ≤ S4x1x3x3.size a
  inb_S4x1x3x3_S1x1x1x1_2_0_2_1 : ∀ a, (![2, 0, 2, 1] : Fin 4 → Nat) a + S1x1x1x1.size a ≤ S4x1x3x3.size a
  inb_S4x1x3x3_S1x1x1x1_2_0_0_2 : ∀ a, (![2, 0, 0, 2] : Fin 4 → Nat) a + S1x1x1x1.size a ≤ S4x1x3x3.size a
  inb_S4x1x3x3_S1x1x1x1_2_0_1_2 : ∀ a, (![2, 0, 1, 2] : Fin 4 → Nat) a + S1x1x1x1.size a ≤ S4x1x3x3.size a
  inb_S4x1x3x3_S1x1x1x1_2_0_2_2 : ∀ a, (![2, 0, 2, 2] : Fin 4 → Nat) a + S1x1x1x1.size a ≤ S4x1x3x3.size a
  inb_S1x4x512x512_S1x1x512x512_0_3_0_0 : ∀ a, (![0, 3, 0, 0] : Fin 4 → Nat) a + S1x1x512x512.size a ≤ S1x4x512x512.size a
  inb_S4x1x3x3_S1x1x1x1_3_0_0_0 : ∀ a, (![3, 0, 0, 0] : Fin 4 → Nat) a + S1x1x1x1.size a ≤ S4x1x3x3.size a
  inb_S4x1x3x3_S1x1x1x1_3_0_1_0 : ∀ a, (![3, 0, 1, 0] : Fin 4 → Nat) a + S1x1x1x1.size a ≤ S4x1x3x3.size a
  inb_S4x1x3x3_S1x1x1x1_3_0_2_0 : ∀ a, (![3, 0, 2, 0] : Fin 4 → Nat) a + S1x1x1x1.size a ≤ S4x1x3x3.size a
  inb_S4x1x3x3_S1x1x1x1_3_0_0_1 : ∀ a, (![3, 0, 0, 1] : Fin 4 → Nat) a + S1x1x1x1.size a ≤ S4x1x3x3.size a
  inb_S4x1x3x3_S1x1x1x1_3_0_1_1 : ∀ a, (![3, 0, 1, 1] : Fin 4 → Nat) a + S1x1x1x1.size a ≤ S4x1x3x3.size a
  inb_S4x1x3x3_S1x1x1x1_3_0_2_1 : ∀ a, (![3, 0, 2, 1] : Fin 4 → Nat) a + S1x1x1x1.size a ≤ S4x1x3x3.size a
  inb_S4x1x3x3_S1x1x1x1_3_0_0_2 : ∀ a, (![3, 0, 0, 2] : Fin 4 → Nat) a + S1x1x1x1.size a ≤ S4x1x3x3.size a
  inb_S4x1x3x3_S1x1x1x1_3_0_1_2 : ∀ a, (![3, 0, 1, 2] : Fin 4 → Nat) a + S1x1x1x1.size a ≤ S4x1x3x3.size a
  inb_S4x1x3x3_S1x1x1x1_3_0_2_2 : ∀ a, (![3, 0, 2, 2] : Fin 4 → Nat) a + S1x1x1x1.size a ≤ S4x1x3x3.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x512.size a ≤ S32x4x512x512.size a
  hwx0_0 : ∀ i : grid0.Coords, EltTy.bits .f32 = 32 ∨ (Rect.block (s := S32x4x512x512) S1x4x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1x3x3.size a ≤ S4x1x3x3.size a
  hwx0_1 : ∀ i : grid0.Coords, EltTy.bits .f32 = 32 ∨ (Rect.block (s := S4x1x3x3) S4x1x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x512x512.size a ≤ S32x4x512x512.size a
  hwx0_2 : ∀ i : grid0.Coords, EltTy.bits .f32 = 32 ∨ (Rect.block (s := S32x4x512x512) S1x4x512x512.size (cc0_transform_2 i) (hinb0_2 i)).WholeWords (EltTy.packing .f32)

variable [Facts₀]

abbrev win0_0 : Pipeline.Window sig grid0 :=
  Pipeline.Window.ofSpec (Memref.whole main_arg0) S1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1x3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4x512x512 : Shape := ⟨4, ![32, 4, 512, 512]⟩
abbrev S4x1x3x3 : Shape := ⟨4, ![4, 1, 3, 3]⟩
abbrev S_ : Shape := ⟨0, ![]⟩
abbrev S32x4x514x514 : Shape := ⟨4, ![32, 4, 514, 514]⟩
abbrev S4x1x1x1 : Shape := ⟨4, ![4, 1, 1, 1]⟩
abbrev S4 : Shape := ⟨1, ![4]⟩
abbrev S1x4x1x1 : Shape := ⟨4, ![1, 4, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S32x4x512x512, .f32⟩
  | .hbm, ⟨1, _⟩ => ⟨S4x1x3x3, .f32⟩
  | .hbm, ⟨2, _⟩ => ⟨S_, .i32⟩
  | .hbm, ⟨3, _⟩ => ⟨S_, .f32⟩
  | .hbm, ⟨4, _⟩ => ⟨S32x4x514x514, .f32⟩
  | .hbm, ⟨5, _⟩ => ⟨S_, .f32⟩
  | .hbm, ⟨6, _⟩ => ⟨S32x4x512x512, .f32⟩
  | .hbm, ⟨7, _⟩ => ⟨S4x1x1x1, .f32⟩
  | .hbm, ⟨8, _⟩ => ⟨S4, .f32⟩
  | .hbm, ⟨9, _⟩ => ⟨S1x4x1x1, .f32⟩
  | .hbm, ⟨10, _⟩ => ⟨S32x4x512x512, .f32⟩
  | .hbm, ⟨11, _⟩ => ⟨S32x4x512x512, .f32⟩
  | .hbm, ⟨12, _⟩ => ⟨S32x4x512x512, .f32⟩
  | .hbm, ⟨13, _⟩ => ⟨S32x4x512x512, .f32⟩
  | .hbm, ⟨14, _⟩ => ⟨S32x4x512x512, .f32⟩
  | .hbm, ⟨15, _⟩ => ⟨S4x1x1x1, .f32⟩
  | .hbm, ⟨16, _⟩ => ⟨S4, .f32⟩
  | .hbm, ⟨17, _⟩ => ⟨S1x4x1x1, .f32⟩
  | .hbm, ⟨18, _⟩ => ⟨S32x4x512x512, .f32⟩
  | .hbm, ⟨19, _⟩ => ⟨S32x4x512x512, .f32⟩
  | .hbm, ⟨20, _⟩ => ⟨S32x4x512x512, .f32⟩
  | .hbm, ⟨21, _⟩ => ⟨S32x4x512x512, .f32⟩
  | .hbm, ⟨22, _⟩ => ⟨S32x4x512x512, .f32⟩
  | .hbm, ⟨23, _⟩ => ⟨S4x1x1x1, .f32⟩
  | .hbm, ⟨24, _⟩ => ⟨S4, .f32⟩
  | .hbm, ⟨25, _⟩ => ⟨S1x4x1x1, .f32⟩
  | .hbm, ⟨26, _⟩ => ⟨S32x4x512x512, .f32⟩
  | .hbm, ⟨27, _⟩ => ⟨S32x4x512x512, .f32⟩
  | .hbm, ⟨28, _⟩ => ⟨S32x4x512x512, .f32⟩
  | .hbm, ⟨29, _⟩ => ⟨S32x4x512x512, .f32⟩
  | .hbm, ⟨30, _⟩ => ⟨S32x4x512x512, .f32⟩
  | .hbm, ⟨31, _⟩ => ⟨S4x1x1x1, .f32⟩
  | .hbm, ⟨32, _⟩ => ⟨S4, .f32⟩
  | .hbm, ⟨33, _⟩ => ⟨S1x4x1x1, .f32⟩
  | .hbm, ⟨34, _⟩ => ⟨S32x4x512x512, .f32⟩
  | .hbm, ⟨35, _⟩ => ⟨S32x4x512x512, .f32⟩
  | .hbm, ⟨36, _⟩ => ⟨S32x4x512x512, .f32⟩
  | .hbm, ⟨37, _⟩ => ⟨S32x4x512x512, .f32⟩
  | .hbm, ⟨38, _⟩ => ⟨S32x4x512x512, .f32⟩
  | .hbm, ⟨39, _⟩ => ⟨S4x1x1x1, .f32⟩
  | .hbm, ⟨40, _⟩ => ⟨S4, .f32⟩
  | .hbm, ⟨41, _⟩ => ⟨S1x4x1x1, .f32⟩
  | .hbm, ⟨42, _⟩ => ⟨S32x4x512x512, .f32⟩
  | .hbm, ⟨43, _⟩ => ⟨S32x4x512x512, .f32⟩
  | .hbm, ⟨44, _⟩ => ⟨S32x4x512x512, .f32⟩
  | .hbm, ⟨45, _⟩ => ⟨S32x4x512x512, .f32⟩
  | .hbm, ⟨46, _⟩ => ⟨S32x4x512x512, .f32⟩
  | .hbm, ⟨47, _⟩ => ⟨S4x1x1x1, .f32⟩
  | .hbm, ⟨48, _⟩ => ⟨S4, .f32⟩
  | .hbm, ⟨49, _⟩ => ⟨S1x4x1x1, .f32⟩
  | .hbm, ⟨50, _⟩ => ⟨S32x4x512x512, .f32⟩
  | .hbm, ⟨51, _⟩ => ⟨S32x4x512x512, .f32⟩
  | .hbm, ⟨52, _⟩ => ⟨S32x4x512x512, .f32⟩
  | .hbm, ⟨53, _⟩ => ⟨S32x4x512x512, .f32⟩
  | .hbm, ⟨54, _⟩ => ⟨S32x4x512x512, .f32⟩
  | .hbm, ⟨55, _⟩ => ⟨S4x1x1x1, .f32⟩
  | .hbm, ⟨56, _⟩ => ⟨S4, .f32⟩
  | .hbm, ⟨57, _⟩ => ⟨S1x4x1x1, .f32⟩
  | .hbm, ⟨58, _⟩ => ⟨S32x4x512x512, .f32⟩
  | .hbm, ⟨59, _⟩ => ⟨S32x4x512x512, .f32⟩
  | .hbm, ⟨60, _⟩ => ⟨S32x4x512x512, .f32⟩
  | .hbm, ⟨61, _⟩ => ⟨S32x4x512x512, .f32⟩
  | .hbm, ⟨62, _⟩ => ⟨S32x4x512x512, .f32⟩
  | .hbm, ⟨63, _⟩ => ⟨S4x1x1x1, .f32⟩
  | .hbm, ⟨64, _⟩ => ⟨S4, .f32⟩
  | .hbm, ⟨65, _⟩ => ⟨S1x4x1x1, .f32⟩
  | .hbm, ⟨66, _⟩ => ⟨S32x4x512x512, .f32⟩
  | .hbm, ⟨67, _⟩ => ⟨S32x4x512x512, .f32⟩
  | .hbm, ⟨68, _⟩ => ⟨S32x4x512x512, .f32⟩
  | .hbm, ⟨69, _⟩ => ⟨S32x4x512x512, .f32⟩
  | .hbm, ⟨70, _⟩ => ⟨S32x4x512x512, .f32⟩
  | .hbm, ⟨71, _⟩ => ⟨S4x1x1x1, .f32⟩
  | .hbm, ⟨72, _⟩ => ⟨S4, .f32⟩
  | .hbm, ⟨73, _⟩ => ⟨S1x4x1x1, .f32⟩
  | .hbm, ⟨74, _⟩ => ⟨S32x4x512x512, .f32⟩
  | .hbm, ⟨75, _⟩ => ⟨S32x4x512x512, .f32⟩
  | .hbm, ⟨76, _⟩ => ⟨S32x4x512x512, .f32⟩
  | .hbm, ⟨77, _⟩ => ⟨S32x4x512x512, .f32⟩
  | .hbm, ⟨78, _⟩ => ⟨S32x4x512x512, .f32⟩
  | .hbm, ⟨79, _⟩ => ⟨S32x4x512x512, .f32⟩
  | _, _ => ⟨S32x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩

abbrev nD : Nat := 1
abbrev τ : Topo := Topo.v7x

variable {F : FTy → Type} [FloatOps F]

class Facts₀ : Prop where
  pads_S32x4x512x512_S32x4x514x514_000_000_110_110 : S32x4x512x512.Pads (![0, 0, 1, 1] : Fin 4 → Nat) ![0, 0, 1, 1] ![0, 0, 0, 0] S32x4x514x514
  h_S_ : 0 < S_.numel
  bcast_S_S32x4x512x512 : S_.BroadcastsInDim S32x4x512x512 (![] : Fin 0 → Fin S32x4x512x512.rank)
  slices_S4x1x3x3_S4x1x1x1_0_0_0_0 : S4x1x3x3.Slices ![0, 0, 0, 0] S4x1x1x1
  shapeCasts_S4x1x1x1_S4 : S4x1x1x1.ShapeCasts S4
  bcast_S4_S1x4x1x1_1 : S4.BroadcastsInDim S1x4x1x1 (![1] : Fin 1 → Fin S1x4x1x1.rank)
  slices_S32x4x514x514_S32x4x512x512_0_0_0_0 : S32x4x514x514.Slices ![0, 0, 0, 0] S32x4x512x512
  bcast_S1x4x1x1_S32x4x512x512_0_1_2_3 : S1x4x1x1.BroadcastsInDim S32x4x512x512 (![0, 1, 2, 3] : Fin 4 → Fin S32x4x512x512.rank)
  slices_S4x1x3x3_S4x1x1x1_0_0_0_1 : S4x1x3x3.Slices ![0, 0, 0, 1] S4x1x1x1
  slices_S32x4x514x514_S32x4x512x512_0_0_0_1 : S32x4x514x514.Slices ![0, 0, 0, 1] S32x4x512x512
  slices_S4x1x3x3_S4x1x1x1_0_0_0_2 : S4x1x3x3.Slices ![0, 0, 0, 2] S4x1x1x1
  slices_S32x4x514x514_S32x4x512x512_0_0_0_2 : S32x4x514x514.Slices ![0, 0, 0, 2] S32x4x512x512
  slices_S4x1x3x3_S4x1x1x1_0_0_1_0 : S4x1x3x3.Slices ![0, 0, 1, 0] S4x1x1x1
  slices_S32x4x514x514_S32x4x512x512_0_0_1_0 : S32x4x514x514.Slices ![0, 0, 1, 0] S32x4x512x512
  slices_S4x1x3x3_S4x1x1x1_0_0_1_1 : S4x1x3x3.Slices ![0, 0, 1, 1] S4x1x1x1
  slices_S32x4x514x514_S32x4x512x512_0_0_1_1 : S32x4x514x514.Slices ![0, 0, 1, 1] S32x4x512x512
  slices_S4x1x3x3_S4x1x1x1_0_0_1_2 : S4x1x3x3.Slices ![0, 0, 1, 2] S4x1x1x1
  slices_S32x4x514x514_S32x4x512x512_0_0_1_2 : S32x4x514x514.Slices ![0, 0, 1, 2] S32x4x512x512
  slices_S4x1x3x3_S4x1x1x1_0_0_2_0 : S4x1x3x3.Slices ![0, 0, 2, 0] S4x1x1x1
  slices_S32x4x514x514_S32x4x512x512_0_0_2_0 : S32x4x514x514.Slices ![0, 0, 2, 0] S32x4x512x512
  slices_S4x1x3x3_S4x1x1x1_0_0_2_1 : S4x1x3x3.Slices ![0, 0, 2, 1] S4x1x1x1
  slices_S32x4x514x514_S32x4x512x512_0_0_2_1 : S32x4x514x514.Slices ![0, 0, 2, 1] S32x4x512x512
  slices_S4x1x3x3_S4x1x1x1_0_0_2_2 : S4x1x3x3.Slices ![0, 0, 2, 2] S4x1x1x1
  slices_S32x4x514x514_S32x4x512x512_0_0_2_2 : S32x4x514x514.Slices ![0, 0, 2, 2] S32x4x512x512

variable [Facts₀]

class Facts : Prop extends Facts₀ where

variable [Facts]
-- ==== Proof.Taps.lean ====
/-
  The nine-tap absolute-difference stencil as one function of the two argument arrays.

  For a plane `p : Fin 512 → Fin 512 → EReal` and a 3×3 table of taps `k`, the value at row `h`, column `q` is
      -(0 + ∑_{i,j} |P(h + i, q + j) - k i j|)
  where `P` is the plane with a border of one zero on every side, read at the padded coordinates
  `0 … 513` (`P(r, s) = p (r - 1) (s - 1)` when `1 ≤ r ≤ 512` and `1 ≤ s ≤ 512`, else `0`), and `|d| = max d (-d)`.
  The nine terms are written out in row-major order of `(i, j)`; addition on the extended reals is commutative and
  associative, so any other order of the nine terms is the same number (`stencil_colMajor`), and `0 - a = -a`.
  Nothing here needs the entries to be finite.
-/
import Idealize.ShloMosaic.PureOps.Ideal
import Idealize.ShloMosaic.Lib.ValueIdx

noncomputable section

namespace Cert.Taps

open Idealize.ShloMosaic Idealize.ShloMosaic.ValueIdx

/-- The plane with a border of one zero on every side, at padded coordinates `r, s` (`0 … 513`). -/
def padRead (p : Fin 512 → Fin 512 → EReal) (r s : ℕ) : EReal :=
  if h : (1 ≤ r ∧ r - 1 < 512) ∧ (1 ≤ s ∧ s - 1 < 512) then p ⟨r - 1, h.1.2⟩ ⟨s - 1, h.2.2⟩ else 0

/-- One tap: the absolute difference of the padded plane at `(h + i, q + j)` and the tap weight `k i j`. -/
def tap (p : Fin 512 → Fin 512 → EReal) (k : Fin 3 → Fin 3 → EReal) (h q : Fin 512) (i j : Fin 3) : EReal :=
  max (padRead p (h.val + i.val) (q.val + j.val) - k i j) (-(padRead p (h.val + i.val) (q.val + j.val) - k i j))

/-- The stencil at `(h, q)`: minus the sum of the nine taps, added to zero in row-major order of `(i, j)`. -/
def stencil (p : Fin 512 → Fin 512 → EReal) (k : Fin 3 → Fin 3 → EReal) (h q : Fin 512) : EReal :=
  -(0 + tap p k h q 0 0 + tap p k h q 0 1 + tap p k h q 0 2
      + tap p k h q 1 0 + tap p k h q 1 1 + tap p k h q 1 2
      + tap p k h q 2 0 + tap p k h q 2 1 + tap p k h q 2 2)

/-- The same nine taps added column by column (`j` outer, `i` inner) and subtracted from zero: the same number. -/
theorem stencil_colMajor (p : Fin 512 → Fin 512 → EReal) (k : Fin 3 → Fin 3 → EReal) (h q : Fin 512) :
    0 - (0 + tap p k h q 0 0 + tap p k h q 1 0 + tap p k h q 2 0
           + tap p k h q 0 1 + tap p k h q 1 1 + tap p k h q 2 1
           + tap p k h q 0 2 + tap p k h q 1 2 + tap p k h q 2 2) = stencil p k h q := by
  unfold stencil
  rw [zero_sub]
  congr 1
  ac_rfl

/-- The whole result: at `(b, c, h, q)` the stencil of plane `(b, c)` of `x` under channel `c`'s 3×3 table of `w`. -/
def G (x : (⟨4, ![32, 4, 512, 512]⟩ : Shape).Idx → EReal) (w : (⟨4, ![4, 1, 3, 3]⟩ : Shape).Idx → EReal) :
    (⟨4, ![32, 4, 512, 512]⟩ : Shape).Idx → EReal :=
  fun y => stencil (fun h q => x (ix4 (y 0) (y 1) h q)) (fun i j => w (ix4 (y 1) 0 i j)) (y 2) (y 3)

/-- One batch element's result from that element's block `x0` of the input: the same stencil, channel by channel. -/
def Gblk (x0 : (⟨4, ![1, 4, 512, 512]⟩ : Shape).Idx → EReal) (w : (⟨4, ![4, 1, 3, 3]⟩ : Shape).Idx → EReal) :
    (⟨4, ![1, 4, 512, 512]⟩ : Shape).Idx → EReal :=
  fun y => stencil (fun h q => x0 (ix4 0 (y 1) h q)) (fun i j => w (ix4 (y 1) 0 i j)) (y 2) (y 3)

end Cert.Taps

end
-- ==== Proof.RefStencil.lean ====
/-
  The reference program's result, read at one index, is the nine-tap absolute-difference stencil.

  The program first borders each 512×512 plane of the input with one zero on every side. Read at the padded
  coordinates `(r, s)`, `0 ≤ r, s ≤ 513`, the bordered plane is the input at `(r - 1, s - 1)` when
  `1 ≤ r ≤ 512` and `1 ≤ s ≤ 512`, and zero otherwise (the padding value is the integer zero converted to a
  float). For each `(i, j)` with `0 ≤ i, j ≤ 2` the program then takes the window of the bordered array that
  starts at `(i, j)`, so that at `(b, c, h, q)` it reads the bordered plane `(b, c)` at `(h + i, q + j)`;
  subtracts the weight at `(c, 0, i, j)`, spread over the batch and the plane; and takes the absolute value
  `max d (-d)`. The nine terms are added to zero one after the other, `i` outer and `j` inner, which is the order
  and the grouping in which the specification writes them, and the sum is negated.
-/
import proofs.«107563_j403726926589_2_alg».proof.Proof.Gen.ReferenceIdeal.Read
import proofs.«107563_j403726926589_2_alg».proof.Proof.Taps
import Idealize.ShloMosaic.Lib.ValueIdx
import Idealize.ShloMosaic.Lib.Pipeline.Value
import Idealize.ShloMosaic.PureOps.Ideal.Laws

noncomputable section

namespace Cert.RefStencil

open Cert.ReferenceIdeal Cert.ReferenceIdeal.Read Idealize.ShloMosaic Idealize.ShloMosaic.ValueIdx

/-- The padding value, the 32-bit integer zero converted to a float, is the number zero. -/
theorem pad_value (i : S_.Idx) : val_main_call0_v0 (F := Ideal) i = (0 : EReal) := by
  show (((0#32 : BitVec 32).toInt : ℝ) : EReal) = 0
  simp

/-- The bordered array at `(b, c, r, s)` is the bordered plane `(b, c)` of the input at `(r, s)`. -/
theorem pad_read (x : (⟨S32x4x512x512, .f32⟩ : BufTy).Contents (Elt Ideal)) (b : Fin 32) (c : Fin 4) (r s : Fin 514) :
    val_main_v0 (F := Ideal) x (ix4 b c r s) = Cert.Taps.padRead (fun h q => x (ix4 b c h q)) r.val s.val := by
  have two : (2 : ℕ) < 4 := by decide
  have three : (3 : ℕ) < 4 := by decide
  unfold val_main_v0 pad
  split
  · rename_i hin
    have h2 : 1 ≤ r.val ∧ (r.val - 1) % (0 + 1) = 0 ∧ (r.val - 1) / (0 + 1) < 512 := hin ⟨2, two⟩
    have h3 : 1 ≤ s.val ∧ (s.val - 1) % (0 + 1) = 0 ∧ (s.val - 1) / (0 + 1) < 512 := hin ⟨3, three⟩
    have hc : (1 ≤ r.val ∧ r.val - 1 < 512) ∧ (1 ≤ s.val ∧ s.val - 1 < 512) := by omega
    unfold Cert.Taps.padRead
    rw [dif_pos hc]
    refine congrArg x (funext fun a => Fin.ext ?_)
    match a with
    | ⟨0, _⟩ => show (b.val - 0) / (0 + 1) = b.val; omega
    | ⟨1, _⟩ => show (c.val - 0) / (0 + 1) = c.val; omega
    | ⟨2, _⟩ => show (r.val - 1) / (0 + 1) = r.val - 1; omega
    | ⟨3, _⟩ => show (s.val - 1) / (0 + 1) = s.val - 1; omega
  · rename_i hin
    have hc : ¬ ((1 ≤ r.val ∧ r.val - 1 < 512) ∧ (1 ≤ s.val ∧ s.val - 1 < 512)) := fun hc => hin fun a =>
      match a with
      | ⟨0, _⟩ => by show 0 ≤ b.val ∧ (b.val - 0) % (0 + 1) = 0 ∧ (b.val - 0) / (0 + 1) < 32; have := b.isLt; omega
      | ⟨1, _⟩ => by show 0 ≤ c.val ∧ (c.val - 0) % (0 + 1) = 0 ∧ (c.val - 0) / (0 + 1) < 4; have := c.isLt; omega
      | ⟨2, _⟩ => by show 1 ≤ r.val ∧ (r.val - 1) % (0 + 1) = 0 ∧ (r.val - 1) / (0 + 1) < 512; omega
      | ⟨3, _⟩ => by show 1 ≤ s.val ∧ (s.val - 1) % (0 + 1) = 0 ∧ (s.val - 1) / (0 + 1) < 512; omega
    unfold Cert.Taps.padRead
    rw [dif_neg hc]
    exact pad_value _

/-- One tap from the bordered array at `(b, c, R, S)` with `R = h + i`, `S = q + j`, and the weight at `(c, 0, i, j)`. -/
theorem tap_eq (x : (⟨S32x4x512x512, .f32⟩ : BufTy).Contents (Elt Ideal)) (w : (⟨S4x1x3x3, .f32⟩ : BufTy).Contents (Elt Ideal))
    (b : Fin 32) (c : Fin 4) (h q : Fin 512) (i j : Fin 3) (R S : Fin 514) (hR : R.val = h.val + i.val) (hS : S.val = q.val + j.val) :
    (max ((val_main_v0 (F := Ideal) x (ix4 b c R S) : EReal) - (w (ix4 c 0 i j) : EReal))
        (-((val_main_v0 (F := Ideal) x (ix4 b c R S) : EReal) - (w (ix4 c 0 i j) : EReal))) : EReal)
      = Cert.Taps.tap (fun h q => x (ix4 b c h q)) (fun i j => w (ix4 c 0 i j)) h q i j := by
  unfold Cert.Taps.tap
  rw [pad_read, hR, hS]

/-- Tap `(0, 0)`'s spread weight, at `(b, c, h, q)`, is the weight at `(c, 0, 0, 0)`. -/
theorem weight_00 (w : (⟨S4x1x3x3, .f32⟩ : BufTy).Contents (Elt Ideal)) (b : Fin 32) (c : Fin 4) (h q : Fin 512) :
    val_main_v6 (F := Ideal) w (ix4 b c h q) = w (ix4 c 0 0 0) := by
  rw [val_main_v6_apply, val_main_v4_apply, val_main_v3_apply, val_main_v2_apply]
  refine congrArg w (funext fun a => Fin.ext ?_)
  match a with
  | ⟨0, _⟩ => show c.val / 1 = c.val; omega
  | ⟨1, _⟩ => rfl
  | ⟨2, _⟩ => rfl
  | ⟨3, _⟩ => rfl

/-- Tap `(0, 0)`: the bordered plane at `(h + 0, q + 0)` against the weight at `(c, 0, 0, 0)`. -/
theorem tap_00 (x : (⟨S32x4x512x512, .f32⟩ : BufTy).Contents (Elt Ideal)) (w : (⟨S4x1x3x3, .f32⟩ : BufTy).Contents (Elt Ideal))
    (b : Fin 32) (c : Fin 4) (h q : Fin 512) :
    val_main_v8 (F := Ideal) x w (ix4 b c h q)
      = Cert.Taps.tap (fun h q => x (ix4 b c h q)) (fun i j => w (ix4 c 0 i j)) h q 0 0 := by
  have hh := h.isLt
  have hq := q.isLt
  have e : idx_main_v5 (ix4 b c h q) = ix4 b c (⟨h.val, by omega⟩ : Fin 514) (⟨q.val, by omega⟩ : Fin 514) :=
    funext fun a => Fin.ext (by match a with | ⟨0, _⟩ => rfl | ⟨1, _⟩ => rfl | ⟨2, _⟩ => rfl | ⟨3, _⟩ => rfl)
  rw [val_main_v8_apply, val_main_v7_apply, val_main_v5_apply, weight_00 w b c h q, e]
  exact tap_eq x w b c h q 0 0 _ _ (by show h.val = h.val + 0; omega) (by show q.val = q.val + 0; omega)

/-- Tap `(0, 1)`'s spread weight, at `(b, c, h, q)`, is the weight at `(c, 0, 0, 1)`. -/
theorem weight_01 (w : (⟨S4x1x3x3, .f32⟩ : BufTy).Contents (Elt Ideal)) (b : Fin 32) (c : Fin 4) (h q : Fin 512) :
    val_main_v14 (F := Ideal) w (ix4 b c h q) = w (ix4 c 0 0 1) := by
  rw [val_main_v14_apply, val_main_v12_apply, val_main_v11_apply, val_main_v10_apply]
  refine congrArg w (funext fun a => Fin.ext ?_)
  match a with
  | ⟨0, _⟩ => show c.val / 1 = c.val; omega
  | ⟨1, _⟩ => rfl
  | ⟨2, _⟩ => rfl
  | ⟨3, _⟩ => rfl

/-- Tap `(0, 1)`: the bordered plane at `(h + 0, q + 1)` against the weight at `(c, 0, 0, 1)`. -/
theorem tap_01 (x : (⟨S32x4x512x512, .f32⟩ : BufTy).Contents (Elt Ideal)) (w : (⟨S4x1x3x3, .f32⟩ : BufTy).Contents (Elt Ideal))
    (b : Fin 32) (c : Fin 4) (h q : Fin 512) :
    val_main_v16 (F := Ideal) x w (ix4 b c h q)
      = Cert.Taps.tap (fun h q => x (ix4 b c h q)) (fun i j => w (ix4 c 0 i j)) h q 0 1 := by
  have hh := h.isLt
  have hq := q.isLt
  have e : idx_main_v13 (ix4 b c h q) = ix4 b c (⟨h.val, by omega⟩ : Fin 514) (⟨1 + q.val, by omega⟩ : Fin 514) :=
    funext fun a => Fin.ext (by match a with | ⟨0, _⟩ => rfl | ⟨1, _⟩ => rfl | ⟨2, _⟩ => rfl | ⟨3, _⟩ => rfl)
  rw [val_main_v16_apply, val_main_v15_apply, val_main_v13_apply, weight_01 w b c h q, e]
  exact tap_eq x w b c h q 0 1 _ _ (by show h.val = h.val + 0; omega) (by show 1 + q.val = q.val + 1; omega)

/-- Tap `(0, 2)`'s spread weight, at `(b, c, h, q)`, is the weight at `(c, 0, 0, 2)`. -/
theorem weight_02 (w : (⟨S4x1x3x3, .f32⟩ : BufTy).Contents (Elt Ideal)) (b : Fin 32) (c : Fin 4) (h q : Fin 512) :
    val_main_v22 (F := Ideal) w (ix4 b c h q) = w (ix4 c 0 0 2) := by
  rw [val_main_v22_apply, val_main_v20_apply, val_main_v19_apply, val_main_v18_apply]
  refine congrArg w (funext fun a => Fin.ext ?_)
  match a with
  | ⟨0, _⟩ => show c.val / 1 = c.val; omega
  | ⟨1, _⟩ => rfl
  | ⟨2, _⟩ => rfl
  | ⟨3, _⟩ => rfl

/-- Tap `(0, 2)`: the bordered plane at `(h + 0, q + 2)` against the weight at `(c, 0, 0, 2)`. -/
theorem tap_02 (x : (⟨S32x4x512x512, .f32⟩ : BufTy).Contents (Elt Ideal)) (w : (⟨S4x1x3x3, .f32⟩ : BufTy).Contents (Elt Ideal))
    (b : Fin 32) (c : Fin 4) (h q : Fin 512) :
    val_main_v24 (F := Ideal) x w (ix4 b c h q)
      = Cert.Taps.tap (fun h q => x (ix4 b c h q)) (fun i j => w (ix4 c 0 i j)) h q 0 2 := by
  have hh := h.isLt
  have hq := q.isLt
  have e : idx_main_v21 (ix4 b c h q) = ix4 b c (⟨h.val, by omega⟩ : Fin 514) (⟨2 + q.val, by omega⟩ : Fin 514) :=
    funext fun a => Fin.ext (by match a with | ⟨0, _⟩ => rfl | ⟨1, _⟩ => rfl | ⟨2, _⟩ => rfl | ⟨3, _⟩ => rfl)
  rw [val_main_v24_apply, val_main_v23_apply, val_main_v21_apply, weight_02 w b c h q, e]
  exact tap_eq x w b c h q 0 2 _ _ (by show h.val = h.val + 0; omega) (by show 2 + q.val = q.val + 2; omega)

/-- Tap `(1, 0)`'s spread weight, at `(b, c, h, q)`, is the weight at `(c, 0, 1, 0)`. -/
theorem weight_10 (w : (⟨S4x1x3x3, .f32⟩ : BufTy).Contents (Elt Ideal)) (b : Fin 32) (c : Fin 4) (h q : Fin 512) :
    val_main_v30 (F := Ideal) w (ix4 b c h q) = w (ix4 c 0 1 0) := by
  rw [val_main_v30_apply, val_main_v28_apply, val_main_v27_apply, val_main_v26_apply]
  refine congrArg w (funext fun a => Fin.ext ?_)
  match a with
  | ⟨0, _⟩ => show c.val / 1 = c.val; omega
  | ⟨1, _⟩ => rfl
  | ⟨2, _⟩ => rfl
  | ⟨3, _⟩ => rfl

/-- Tap `(1, 0)`: the bordered plane at `(h + 1, q + 0)` against the weight at `(c, 0, 1, 0)`. -/
theorem tap_10 (x : (⟨S32x4x512x512, .f32⟩ : BufTy).Contents (Elt Ideal)) (w : (⟨S4x1x3x3, .f32⟩ : BufTy).Contents (Elt Ideal))
    (b : Fin 32) (c : Fin 4) (h q : Fin 512) :
    val_main_v32 (F := Ideal) x w (ix4 b c h q)
      = Cert.Taps.tap (fun h q => x (ix4 b c h q)) (fun i j => w (ix4 c 0 i j)) h q 1 0 := by
  have hh := h.isLt
  have hq := q.isLt
  have e : idx_main_v29 (ix4 b c h q) = ix4 b c (⟨1 + h.val, by omega⟩ : Fin 514) (⟨q.val, by omega⟩ : Fin 514) :=
    funext fun a => Fin.ext (by match a with | ⟨0, _⟩ => rfl | ⟨1, _⟩ => rfl | ⟨2, _⟩ => rfl | ⟨3, _⟩ => rfl)
  rw [val_main_v32_apply, val_main_v31_apply, val_main_v29_apply, weight_10 w b c h q, e]
  exact tap_eq x w b c h q 1 0 _ _ (by show 1 + h.val = h.val + 1; omega) (by show q.val = q.val + 0; omega)

/-- Tap `(1, 1)`'s spread weight, at `(b, c, h, q)`, is the weight at `(c, 0, 1, 1)`. -/
theorem weight_11 (w : (⟨S4x1x3x3, .f32⟩ : BufTy).Contents (Elt Ideal)) (b : Fin 32) (c : Fin 4) (h q : Fin 512) :
    val_main_v38 (F := Ideal) w (ix4 b c h q) = w (ix4 c 0 1 1) := by
  rw [val_main_v38_apply, val_main_v36_apply, val_main_v35_apply, val_main_v34_apply]
  refine congrArg w (funext fun a => Fin.ext ?_)
  match a with
  | ⟨0, _⟩ => show c.val / 1 = c.val; omega
  | ⟨1, _⟩ => rfl
  | ⟨2, _⟩ => rfl
  | ⟨3, _⟩ => rfl

/-- Tap `(1, 1)`: the bordered plane at `(h + 1, q + 1)` against the weight at `(c, 0, 1, 1)`. -/
theorem tap_11 (x : (⟨S32x4x512x512, .f32⟩ : BufTy).Contents (Elt Ideal)) (w : (⟨S4x1x3x3, .f32⟩ : BufTy).Contents (Elt Ideal))
    (b : Fin 32) (c : Fin 4) (h q : Fin 512) :
    val_main_v40 (F := Ideal) x w (ix4 b c h q)
      = Cert.Taps.tap (fun h q => x (ix4 b c h q)) (fun i j => w (ix4 c 0 i j)) h q 1 1 := by
  have hh := h.isLt
  have hq := q.isLt
  have e : idx_main_v37 (ix4 b c h q) = ix4 b c (⟨1 + h.val, by omega⟩ : Fin 514) (⟨1 + q.val, by omega⟩ : Fin 514) :=
    funext fun a => Fin.ext (by match a with | ⟨0, _⟩ => rfl | ⟨1, _⟩ => rfl | ⟨2, _⟩ => rfl | ⟨3, _⟩ => rfl)
  rw [val_main_v40_apply, val_main_v39_apply, val_main_v37_apply, weight_11 w b c h q, e]
  exact tap_eq x w b c h q 1 1 _ _ (by show 1 + h.val = h.val + 1; omega) (by show 1 + q.val = q.val + 1; omega)

/-- Tap `(1, 2)`'s spread weight, at `(b, c, h, q)`, is the weight at `(c, 0, 1, 2)`. -/
theorem weight_12 (w : (⟨S4x1x3x3, .f32⟩ : BufTy).Contents (Elt Ideal)) (b : Fin 32) (c : Fin 4) (h q : Fin 512) :
    val_main_v46 (F := Ideal) w (ix4 b c h q) = w (ix4 c 0 1 2) := by
  rw [val_main_v46_apply, val_main_v44_apply, val_main_v43_apply, val_main_v42_apply]
  refine congrArg w (funext fun a => Fin.ext ?_)
  match a with
  | ⟨0, _⟩ => show c.val / 1 = c.val; omega
  | ⟨1, _⟩ => rfl
  | ⟨2, _⟩ => rfl
  | ⟨3, _⟩ => rfl

/-- Tap `(1, 2)`: the bordered plane at `(h + 1, q + 2)` against the weight at `(c, 0, 1, 2)`. -/
theorem tap_12 (x : (⟨S32x4x512x512, .f32⟩ : BufTy).Contents (Elt Ideal)) (w : (⟨S4x1x3x3, .f32⟩ : BufTy).Contents (Elt Ideal))
    (b : Fin 32) (c : Fin 4) (h q : Fin 512) :
    val_main_v48 (F := Ideal) x w (ix4 b c h q)
      = Cert.Taps.tap (fun h q => x (ix4 b c h q)) (fun i j => w (ix4 c 0 i j)) h q 1 2 := by
  have hh := h.isLt
  have hq := q.isLt
  have e : idx_main_v45 (ix4 b c h q) = ix4 b c (⟨1 + h.val, by omega⟩ : Fin 514) (⟨2 + q.val, by omega⟩ : Fin 514) :=
    funext fun a => Fin.ext (by match a with | ⟨0, _⟩ => rfl | ⟨1, _⟩ => rfl | ⟨2, _⟩ => rfl | ⟨3, _⟩ => rfl)
  rw [val_main_v48_apply, val_main_v47_apply, val_main_v45_apply, weight_12 w b c h q, e]
  exact tap_eq x w b c h q 1 2 _ _ (by show 1 + h.val = h.val + 1; omega) (by show 2 + q.val = q.val + 2; omega)

/-- Tap `(2, 0)`'s spread weight, at `(b, c, h, q)`, is the weight at `(c, 0, 2, 0)`. -/
theorem weight_20 (w : (⟨S4x1x3x3, .f32⟩ : BufTy).Contents (Elt Ideal)) (b : Fin 32) (c : Fin 4) (h q : Fin 512) :
    val_main_v54 (F := Ideal) w (ix4 b c h q) = w (ix4 c 0 2 0) := by
  rw [val_main_v54_apply, val_main_v52_apply, val_main_v51_apply, val_main_v50_apply]
  refine congrArg w (funext fun a => Fin.ext ?_)
  match a with
  | ⟨0, _⟩ => show c.val / 1 = c.val; omega
  | ⟨1, _⟩ => rfl
  | ⟨2, _⟩ => rfl
  | ⟨3, _⟩ => rfl

/-- Tap `(2, 0)`: the bordered plane at `(h + 2, q + 0)` against the weight at `(c, 0, 2, 0)`. -/
theorem tap_20 (x : (⟨S32x4x512x512, .f32⟩ : BufTy).Contents (Elt Ideal)) (w : (⟨S4x1x3x3, .f32⟩ : BufTy).Contents (Elt Ideal))
    (b : Fin 32) (c : Fin 4) (h q : Fin 512) :
    val_main_v56 (F := Ideal) x w (ix4 b c h q)
      = Cert.Taps.tap (fun h q => x (ix4 b c h q)) (fun i j => w (ix4 c 0 i j)) h q 2 0 := by
  have hh := h.isLt
  have hq := q.isLt
  have e : idx_main_v53 (ix4 b c h q) = ix4 b c (⟨2 + h.val, by omega⟩ : Fin 514) (⟨q.val, by omega⟩ : Fin 514) :=
    funext fun a => Fin.ext (by match a with | ⟨0, _⟩ => rfl | ⟨1, _⟩ => rfl | ⟨2, _⟩ => rfl | ⟨3, _⟩ => rfl)
  rw [val_main_v56_apply, val_main_v55_apply, val_main_v53_apply, weight_20 w b c h q, e]
  exact tap_eq x w b c h q 2 0 _ _ (by show 2 + h.val = h.val + 2; omega) (by show q.val = q.val + 0; omega)

/-- Tap `(2, 1)`'s spread weight, at `(b, c, h, q)`, is the weight at `(c, 0, 2, 1)`. -/
theorem weight_21 (w : (⟨S4x1x3x3, .f32⟩ : BufTy).Contents (Elt Ideal)) (b : Fin 32) (c : Fin 4) (h q : Fin 512) :
    val_main_v62 (F := Ideal) w (ix4 b c h q) = w (ix4 c 0 2 1) := by
  rw [val_main_v62_apply, val_main_v60_apply, val_main_v59_apply, val_main_v58_apply]
  refine congrArg w (funext fun a => Fin.ext ?_)
  match a with
  | ⟨0, _⟩ => show c.val / 1 = c.val; omega
  | ⟨1, _⟩ => rfl
  | ⟨2, _⟩ => rfl
  | ⟨3, _⟩ => rfl

/-- Tap `(2, 1)`: the bordered plane at `(h + 2, q + 1)` against the weight at `(c, 0, 2, 1)`. -/
theorem tap_21 (x : (⟨S32x4x512x512, .f32⟩ : BufTy).Contents (Elt Ideal)) (w : (⟨S4x1x3x3, .f32⟩ : BufTy).Contents (Elt Ideal))
    (b : Fin 32) (c : Fin 4) (h q : Fin 512) :
    val_main_v64 (F := Ideal) x w (ix4 b c h q)
      = Cert.Taps.tap (fun h q => x (ix4 b c h q)) (fun i j => w (ix4 c 0 i j)) h q 2 1 := by
  have hh := h.isLt
  have hq := q.isLt
  have e : idx_main_v61 (ix4 b c h q) = ix4 b c (⟨2 + h.val, by omega⟩ : Fin 514) (⟨1 + q.val, by omega⟩ : Fin 514) :=
    funext fun a => Fin.ext (by match a with | ⟨0, _⟩ => rfl | ⟨1, _⟩ => rfl | ⟨2, _⟩ => rfl | ⟨3, _⟩ => rfl)
  rw [val_main_v64_apply, val_main_v63_apply, val_main_v61_apply, weight_21 w b c h q, e]
  exact tap_eq x w b c h q 2 1 _ _ (by show 2 + h.val = h.val + 2; omega) (by show 1 + q.val = q.val + 1; omega)

/-- Tap `(2, 2)`'s spread weight, at `(b, c, h, q)`, is the weight at `(c, 0, 2, 2)`. -/
theorem weight_22 (w : (⟨S4x1x3x3, .f32⟩ : BufTy).Contents (Elt Ideal)) (b : Fin 32) (c : Fin 4) (h q : Fin 512) :
    val_main_v70 (F := Ideal) w (ix4 b c h q) = w (ix4 c 0 2 2) := by
  rw [val_main_v70_apply, val_main_v68_apply, val_main_v67_apply, val_main_v66_apply]
  refine congrArg w (funext fun a => Fin.ext ?_)
  match a with
  | ⟨0, _⟩ => show c.val / 1 = c.val; omega
  | ⟨1, _⟩ => rfl
  | ⟨2, _⟩ => rfl
  | ⟨3, _⟩ => rfl

/-- Tap `(2, 2)`: the bordered plane at `(h + 2, q + 2)` against the weight at `(c, 0, 2, 2)`. -/
theorem tap_22 (x : (⟨S32x4x512x512, .f32⟩ : BufTy).Contents (Elt Ideal)) (w : (⟨S4x1x3x3, .f32⟩ : BufTy).Contents (Elt Ideal))
    (b : Fin 32) (c : Fin 4) (h q : Fin 512) :
    val_main_v72 (F := Ideal) x w (ix4 b c h q)
      = Cert.Taps.tap (fun h q => x (ix4 b c h q)) (fun i j => w (ix4 c 0 i j)) h q 2 2 := by
  have hh := h.isLt
  have hq := q.isLt
  have e : idx_main_v69 (ix4 b c h q) = ix4 b c (⟨2 + h.val, by omega⟩ : Fin 514) (⟨2 + q.val, by omega⟩ : Fin 514) :=
    funext fun a => Fin.ext (by match a with | ⟨0, _⟩ => rfl | ⟨1, _⟩ => rfl | ⟨2, _⟩ => rfl | ⟨3, _⟩ => rfl)
  rw [val_main_v72_apply, val_main_v71_apply, val_main_v69_apply, weight_22 w b c h q, e]
  exact tap_eq x w b c h q 2 2 _ _ (by show 2 + h.val = h.val + 2; omega) (by show 2 + q.val = q.val + 2; omega)

/-- The reference's last stage of input `x` and weight `w` is the stencil of the specification. -/
theorem ref_is_G (x : (⟨S32x4x512x512, .f32⟩ : BufTy).Contents (Elt Ideal)) (w : (⟨S4x1x3x3, .f32⟩ : BufTy).Contents (Elt Ideal)) :
    Cert.ReferenceIdeal.Read.val_main_v74 (F := Ideal) x w = Cert.Taps.G x w := by
  funext y
  obtain ⟨b, c, h, q, rfl⟩ : ∃ (b : Fin 32) (c : Fin 4) (h q : Fin 512), y = ix4 b c h q := ⟨y 0, y 1, y 2, y 3, eq_ix4 y⟩
  rw [val_main_v74_apply, val_main_v73_apply, val_main_v65_apply, val_main_v57_apply, val_main_v49_apply, val_main_v41_apply, val_main_v33_apply, val_main_v25_apply, val_main_v17_apply, val_main_v9_apply,
    tap_00 x w b c h q, tap_01 x w b c h q, tap_02 x w b c h q, tap_10 x w b c h q, tap_11 x w b c h q, tap_12 x w b c h q, tap_20 x w b c h q, tap_21 x w b c h q, tap_22 x w b c h q,
    val_main_v1_apply, val_main_cst_apply]
  simp only [Ideal.hostNegf_def, Ideal.negf_def, Ideal.addf_def, Ideal.ofBits_def, Ideal.ofBits_zero_f32]
  rfl

end Cert.RefStencil

end
-- ==== Proof.ScratchPad.lean ====
/-
  The scratch pad read back.

  The body fills the 528 × 768 scratch with zeros, and then, for each channel in turn, stores that channel's
  512 × 512 plane at rows 8 … 519, columns 128 … 639. Whatever planes were stored before, the scratch then holds the
  LAST plane inside that rectangle and zero everywhere else. A load of 514 rows and 512 columns from row 7 and column
  `o` (`o` = 127, 128, 129) therefore reads, at `(r, s)`, the plane with a border of one zero at padded
  coordinates `(r, s + (o - 127))`: scratch row `7 + r` is plane row `r - 1`, scratch column `o + s` is plane
  column `s + (o - 127) - 1`.
-/
import proofs.«107563_j403726926589_2_alg».proof.KernelIdeal
import proofs.«107563_j403726926589_2_alg».proof.Proof.Taps
import Idealize.ShloMosaic.Lib.Pipeline.Value
import Idealize.ShloMosaic.Lib.ValueIdx

set_option maxRecDepth 16384

noncomputable section

namespace Cert.KernelIdeal.ScratchPad

open Cert.KernelIdeal Idealize.ShloMosaic Idealize.ShloMosaic.ValueIdx Cert.Taps

/-- A scratch index is inside the stored rectangle iff its row is in 8 … 519 and its column in 128 … 639. -/
theorem mem_interior (inb : ∀ a, (![8, 128] : Fin 2 → ℕ) a + S512x512.size a ≤ S528x768.size a) (R : Fin 528) (C : Fin 768) :
    (ix2 R C : S528x768.Idx) ∈ (Rect.unit (s := S528x768) ![8, 128] S512x512.size inb).set
      ↔ (8 ≤ R.val ∧ R.val < 520) ∧ (128 ≤ C.val ∧ C.val < 640) := by
  rw [Rect.mem_set_unit]
  constructor
  · intro h
    have h0 : 8 ≤ R.val ∧ R.val < 8 + 512 := h ⟨0, Nat.zero_lt_two⟩
    have h1 : 128 ≤ C.val ∧ C.val < 128 + 512 := h ⟨1, Nat.one_lt_two⟩
    omega
  · intro h a
    match a with
    | ⟨0, _⟩ => show 8 ≤ R.val ∧ R.val < 8 + 512; omega
    | ⟨1, _⟩ => show 128 ≤ C.val ∧ C.val < 128 + 512; omega

/-- Inside the stored rectangle the newest plane is read, at the coordinates shifted back by (8, 128). -/
theorem canon_interior (inb : ∀ a, (![8, 128] : Fin 2 → ℕ) a + S512x512.size a ≤ S528x768.size a)
    (P : S512x512.Idx → EReal) (L : List (View.Piece (Elt Ideal) S528x768 .f32)) (R : Fin 528) (C : Fin 768)
    (hR : 8 ≤ R.val ∧ R.val < 520) (hC : 128 ≤ C.val ∧ C.val < 640) :
    View.canon (⟨Rect.unit (s := S528x768) ![8, 128] S512x512.size inb, P⟩ :: L) (ix2 R C)
      = P (ix2 ⟨R.val - 8, by omega⟩ ⟨C.val - 128, by omega⟩) := by
  have e : (ix2 R C : S528x768.Idx)
      = (Rect.unit (s := S528x768) ![8, 128] S512x512.size inb).emb (ix2 ⟨R.val - 8, by omega⟩ ⟨C.val - 128, by omega⟩) := by
    funext a
    refine Fin.ext ?_
    rw [Rect.emb_apply]
    match a with
    | ⟨0, _⟩ => show R.val = 8 + 1 * (R.val - 8); omega
    | ⟨1, _⟩ => show C.val = 128 + 1 * (C.val - 128); omega
  rw [e, View.canon_cons_emb]

/-- The contents are zero off the stored rectangle. -/
def ZeroBorder (L : List (View.Piece (Elt Ideal) S528x768 .f32)) : Prop :=
  ∀ (R : Fin 528) (C : Fin 768), ¬((8 ≤ R.val ∧ R.val < 520) ∧ (128 ≤ C.val ∧ C.val < 640)) → View.canon L (ix2 R C) = 0

/-- Storing a plane in the rectangle keeps the border zero. -/
theorem ZeroBorder.cons {L : List (View.Piece (Elt Ideal) S528x768 .f32)} (hL : ZeroBorder L)
    (inb : ∀ a, (![8, 128] : Fin 2 → ℕ) a + S512x512.size a ≤ S528x768.size a) (P : S512x512.Idx → EReal) :
    ZeroBorder (⟨Rect.unit (s := S528x768) ![8, 128] S512x512.size inb, P⟩ :: L) := by
  unfold ZeroBorder at hL ⊢
  intro R C h
  have hm : (ix2 R C : S528x768.Idx) ∉ (Rect.unit (s := S528x768) ![8, 128] S512x512.size inb).set :=
    fun hm => h ((mem_interior inb R C).mp hm)
  exact (View.canon_cons_of_not_mem
    (⟨Rect.unit (s := S528x768) ![8, 128] S512x512.size inb, P⟩ : View.Piece (Elt Ideal) S528x768 .f32) L hm).trans (hL R C h)

/-- A load of 514 × 512 from row 7, column `o` of the scratch whose newest plane is `P` over a zero border reads
    the zero-bordered plane at padded coordinates `(r, s + (o - 127))`. -/
theorem load_eq (v : View sig .tc .vmem S528x768 .f32)
    (inb : ∀ a, (![8, 128] : Fin 2 → ℕ) a + S512x512.size a ≤ S528x768.size a)
    (P : S512x512.Idx → EReal) (L : List (View.Piece (Elt Ideal) S528x768 .f32)) (hL : ZeroBorder L)
    (o : ℕ) (ho : 127 ≤ o ∧ o ≤ 129) (inbL : ∀ a, (![7, o] : Fin 2 → ℕ) a + S514x512.size a ≤ S528x768.size a)
    (r : Fin 514) (s : Fin 512) :
    v.readCov (⟨Rect.unit (s := S528x768) ![8, 128] S512x512.size inb, P⟩ :: L)
        (Rect.unit (s := S528x768) ![7, o] S514x512.size inbL).toLoadRect (ix2 r s)
      = padRead (fun h q => P (ix2 h q)) r.val (s.val + (o - 127)) := by
  rw [View.readCov_eq_canon']
  have e : (Rect.unit (s := S528x768) ![7, o] S514x512.size inbL).toLoadRect.idx (ix2 r s)
      = (ix2 ⟨7 + r.val, by omega⟩ ⟨o + s.val, by omega⟩ : S528x768.Idx) := by
    funext a
    refine Fin.ext ?_
    match a with
    | ⟨0, _⟩ => show 7 + 1 * r.val = 7 + r.val; omega
    | ⟨1, _⟩ => show o + 1 * s.val = o + s.val; omega
  show View.canon _ ((Rect.unit (s := S528x768) ![7, o] S514x512.size inbL).toLoadRect.idx (ix2 r s)) = _
  rw [e]
  unfold padRead
  by_cases hin : (1 ≤ r.val ∧ r.val - 1 < 512) ∧ (1 ≤ s.val + (o - 127) ∧ s.val + (o - 127) - 1 < 512)
  · rw [dif_pos hin, canon_interior inb P L _ _ (by dsimp only; omega) (by dsimp only; omega)]
    congr 1
    funext a
    refine Fin.ext ?_
    match a with
    | ⟨0, _⟩ => show 7 + r.val - 8 = r.val - 1; omega
    | ⟨1, _⟩ => show o + s.val - 128 = s.val + (o - 127) - 1; omega
  · rw [dif_neg hin]
    have hout : ¬((8 ≤ 7 + r.val ∧ 7 + r.val < 520) ∧ (128 ≤ o + s.val ∧ o + s.val < 640)) := by omega
    have hm : (ix2 ⟨7 + r.val, by omega⟩ ⟨o + s.val, by omega⟩ : S528x768.Idx)
        ∉ (Rect.unit (s := S528x768) ![8, 128] S512x512.size inb).set :=
      fun hm => hout ((mem_interior inb _ _).mp hm)
    exact (View.canon_cons_of_not_mem
      (⟨Rect.unit (s := S528x768) ![8, 128] S512x512.size inb, P⟩ : View.Piece (Elt Ideal) S528x768 .f32) L hm).trans (hL _ _ hout)

end Cert.KernelIdeal.ScratchPad

end
-- ==== Proof.ChannelValue.lean ====
/-
  One channel's stored value, as one term, and that term at an index.

  For a channel the body loads three 514 × 512 strips `V0, V1, V2` of the scratch (column offsets 127, 128, 129), and
  for each strip and each of three row offsets `i` adds `|strip[i : i + 512, :] - w|` to an accumulator that starts at
  zero, `w` the tap weight extracted from a one-element vector; the stored value is `0 - accumulator`, cast to a
  `[1, 1, 512, 512]` block. When strip `j` reads the zero-bordered plane `p` at padded coordinates `(r, s + j)` and the
  weight of strip `j`, row offset `i` is `k i j`, the value at `(h, q)` is the nine-tap stencil of `p` under `k`: the
  body adds the taps column by column, the specification row by row, and addition is commutative and associative.
-/
import proofs.«107563_j403726926589_2_alg».proof.KernelIdeal
import proofs.«107563_j403726926589_2_alg».proof.Proof.Taps
import Idealize.ShloMosaic.Lib.Pipeline.Value
import Idealize.ShloMosaic.Lib.ValueIdx
import Idealize.ShloMosaic.PureOps.Ideal.Laws

set_option maxRecDepth 16384

noncomputable section

namespace Cert.KernelIdeal.ChannelValue

open Cert.KernelIdeal Idealize.ShloMosaic Idealize.ShloMosaic.ValueIdx Cert.Taps

/-- One tap as the body computes it: `|V[i : i + 512, :] - w|`, the weight spread over the plane. -/
def oneTap (i : ℕ) (hs : S514x512.Slices ![i, 0] S512x512) (hp : ∀ a, (![0, 0, 0, 0] : Fin 4 → ℕ) a < S1x1x1x1.size a)
    (V : Vec Ideal S514x512 .f32) (w : Vec Ideal S1x1x1x1 .f32) : FVec Ideal S512x512 .f32 :=
  absf (subf (extractStridedSlice S512x512 ![i, 0] V hs) (broadcast S512x512 (extractAt ![0, 0, 0, 0] w hp)))

/-- The three taps of one strip added to an accumulator, row offsets 0, 1, 2 in turn. -/
def stripTaps (hs0 : S514x512.Slices ![0, 0] S512x512) (hs1 : S514x512.Slices ![1, 0] S512x512) (hs2 : S514x512.Slices ![2, 0] S512x512)
    (hp : ∀ a, (![0, 0, 0, 0] : Fin 4 → ℕ) a < S1x1x1x1.size a)
    (acc : FVec Ideal S512x512 .f32) (V : Vec Ideal S514x512 .f32) (w0 w1 w2 : Vec Ideal S1x1x1x1 .f32) : FVec Ideal S512x512 .f32 :=
  addf (addf (addf acc (oneTap 0 hs0 hp V w0)) (oneTap 1 hs1 hp V w1)) (oneTap 2 hs2 hp V w2)

/-- One channel's stored block: zero minus the nine taps added strip by strip to zero, as a `[1, 1, 512, 512]` block. -/
def chanVal (hs0 : S514x512.Slices ![0, 0] S512x512) (hs1 : S514x512.Slices ![1, 0] S512x512) (hs2 : S514x512.Slices ![2, 0] S512x512)
    (hp : ∀ a, (![0, 0, 0, 0] : Fin 4 → ℕ) a < S1x1x1x1.size a) (hc : S512x512.ShapeCasts S1x1x512x512)
    (V0 V1 V2 : Vec Ideal S514x512 .f32) (w00 w10 w20 w01 w11 w21 w02 w12 w22 : Vec Ideal S1x1x1x1 .f32) : FVec Ideal S1x1x512x512 .f32 :=
  shapeCast S1x1x512x512
    (subf (broadcast S512x512 (Scalar.ofBits .f32 0x00000000#32))
      (stripTaps hs0 hs1 hs2 hp
        (stripTaps hs0 hs1 hs2 hp
          (stripTaps hs0 hs1 hs2 hp (broadcast S512x512 (Scalar.ofBits .f32 0x00000000#32)) V0 w00 w10 w20)
          V1 w01 w11 w21)
        V2 w02 w12 w22)) hc

/-- One tap at `(h, q)`, when the strip reads the zero-bordered plane `p` at `(r, s + o)` and the weight is `k`. -/
theorem oneTap_apply (i : ℕ) (hs : S514x512.Slices ![i, 0] S512x512) (hp : ∀ a, (![0, 0, 0, 0] : Fin 4 → ℕ) a < S1x1x1x1.size a)
    (V : Vec Ideal S514x512 .f32) (w : Vec Ideal S1x1x1x1 .f32) (p : Fin 512 → Fin 512 → EReal) (k : EReal) (o : ℕ)
    (hV : ∀ (r : Fin 514) (s : Fin 512), V (ix2 r s) = padRead p r.val (s.val + o)) (hw : w (ix4 0 0 0 0) = k) (h q : Fin 512) :
    oneTap i hs hp V w (ix2 h q)
      = max (padRead p (h.val + i) (q.val + o) - k) (-(padRead p (h.val + i) (q.val + o) - k)) := by
  have hi : i + 512 ≤ 514 := hs.2 ⟨0, Nat.zero_lt_two⟩
  have e1 : extractStridedSlice S512x512 ![i, 0] V hs (ix2 h q) = V (ix2 ⟨h.val + i, by omega⟩ q) :=
    extractStridedSlice_apply ![i, 0] V hs (ix2 h q) (ix2 ⟨h.val + i, by omega⟩ q) (fun a => by
      match a with
      | ⟨0, _⟩ => show h.val + i = i + h.val; omega
      | ⟨1, _⟩ => show q.val = 0 + q.val; omega)
  have e2 : extractAt ![0, 0, 0, 0] w hp = w (ix4 0 0 0 0) := by
    unfold extractAt
    congr 1
    funext a
    refine Fin.ext ?_
    match a with
    | ⟨0, _⟩ => rfl
    | ⟨1, _⟩ => rfl
    | ⟨2, _⟩ => rfl
    | ⟨3, _⟩ => rfl
  show max (extractStridedSlice S512x512 ![i, 0] V hs (ix2 h q) - extractAt ![0, 0, 0, 0] w hp)
      (-(extractStridedSlice S512x512 ![i, 0] V hs (ix2 h q) - extractAt ![0, 0, 0, 0] w hp)) = _
  rw [e1, e2, hV, hw]

/-- One strip's three taps at `(h, q)`: the accumulator plus the taps of column `o`, rows 0, 1, 2. -/
theorem stripTaps_apply (hs0 : S514x512.Slices ![0, 0] S512x512) (hs1 : S514x512.Slices ![1, 0] S512x512) (hs2 : S514x512.Slices ![2, 0] S512x512)
    (hp : ∀ a, (![0, 0, 0, 0] : Fin 4 → ℕ) a < S1x1x1x1.size a)
    (acc : FVec Ideal S512x512 .f32) (V : Vec Ideal S514x512 .f32) (w0 w1 w2 : Vec Ideal S1x1x1x1 .f32)
    (p : Fin 512 → Fin 512 → EReal) (k0 k1 k2 : EReal) (o : ℕ)
    (hV : ∀ (r : Fin 514) (s : Fin 512), V (ix2 r s) = padRead p r.val (s.val + o))
    (hw0 : w0 (ix4 0 0 0 0) = k0) (hw1 : w1 (ix4 0 0 0 0) = k1) (hw2 : w2 (ix4 0 0 0 0) = k2) (h q : Fin 512) :
    stripTaps hs0 hs1 hs2 hp acc V w0 w1 w2 (ix2 h q)
      = acc (ix2 h q)
        + max (padRead p (h.val + 0) (q.val + o) - k0) (-(padRead p (h.val + 0) (q.val + o) - k0))
        + max (padRead p (h.val + 1) (q.val + o) - k1) (-(padRead p (h.val + 1) (q.val + o) - k1))
        + max (padRead p (h.val + 2) (q.val + o) - k2) (-(padRead p (h.val + 2) (q.val + o) - k2)) := by
  unfold stripTaps
  rw [addf_apply, addf_apply, addf_apply,
    oneTap_apply 0 hs0 hp V w0 p k0 o hV hw0, oneTap_apply 1 hs1 hp V w1 p k1 o hV hw1, oneTap_apply 2 hs2 hp V w2 p k2 o hV hw2]

/-- The channel's block at `(0, 0, h, q)` is the stencil of the plane under the 3 × 3 table of weights. -/
theorem chanVal_apply (hs0 : S514x512.Slices ![0, 0] S512x512) (hs1 : S514x512.Slices ![1, 0] S512x512) (hs2 : S514x512.Slices ![2, 0] S512x512)
    (hp : ∀ a, (![0, 0, 0, 0] : Fin 4 → ℕ) a < S1x1x1x1.size a) (hc : S512x512.ShapeCasts S1x1x512x512)
    (V0 V1 V2 : Vec Ideal S514x512 .f32) (w00 w10 w20 w01 w11 w21 w02 w12 w22 : Vec Ideal S1x1x1x1 .f32)
    (p : Fin 512 → Fin 512 → EReal) (k : Fin 3 → Fin 3 → EReal)
    (hV0 : ∀ (r : Fin 514) (s : Fin 512), V0 (ix2 r s) = padRead p r.val (s.val + 0))
    (hV1 : ∀ (r : Fin 514) (s : Fin 512), V1 (ix2 r s) = padRead p r.val (s.val + 1))
    (hV2 : ∀ (r : Fin 514) (s : Fin 512), V2 (ix2 r s) = padRead p r.val (s.val + 2))
    (h00 : w00 (ix4 0 0 0 0) = k 0 0) (h10 : w10 (ix4 0 0 0 0) = k 1 0) (h20 : w20 (ix4 0 0 0 0) = k 2 0)
    (h01 : w01 (ix4 0 0 0 0) = k 0 1) (h11 : w11 (ix4 0 0 0 0) = k 1 1) (h21 : w21 (ix4 0 0 0 0) = k 2 1)
    (h02 : w02 (ix4 0 0 0 0) = k 0 2) (h12 : w12 (ix4 0 0 0 0) = k 1 2) (h22 : w22 (ix4 0 0 0 0) = k 2 2)
    (h q : Fin 512) :
    chanVal hs0 hs1 hs2 hp hc V0 V1 V2 w00 w10 w20 w01 w11 w21 w02 w12 w22 (ix4 (0 : Fin 1) (0 : Fin 1) h q) = stencil p k h q := by
  unfold chanVal
  rw [shapeCast_apply _ hc (ix4 (0 : Fin 1) (0 : Fin 1) h q) (ix2 h q) (by
      rw [Shape.rowMajor_val_two, Shape.rowMajor_val_four]
      show h.val * 512 + q.val = (((0 : ℕ) * 1 + 0) * 512 + h.val) * 512 + q.val
      omega)]
  rw [subf_apply, broadcast_apply,
    stripTaps_apply hs0 hs1 hs2 hp _ V2 w02 w12 w22 p (k 0 2) (k 1 2) (k 2 2) 2 hV2 h02 h12 h22,
    stripTaps_apply hs0 hs1 hs2 hp _ V1 w01 w11 w21 p (k 0 1) (k 1 1) (k 2 1) 1 hV1 h01 h11 h21,
    stripTaps_apply hs0 hs1 hs2 hp _ V0 w00 w10 w20 p (k 0 0) (k 1 0) (k 2 0) 0 hV0 h00 h10 h20,
    broadcast_apply]
  show Ideal.ofBits .f32 0x00000000#32 - (Ideal.ofBits .f32 0x00000000#32 + _ + _ + _ + _ + _ + _ + _ + _ + _) = _
  rw [Ideal.ofBits_zero_f32]
  exact stencil_colMajor p k h q

end Cert.KernelIdeal.ChannelValue

end
-- ==== Proof.BlockValue.lean ====
/-
  What one grid point leaves in the output's block: the stencil of that point's input block, channel by channel.

  The body zero-fills the scratch pad and then, for channel 0, 1, 2, 3 in turn, stores the channel's plane of the input
  block inside it, loads three column-shifted strips, adds the nine absolute differences and stores zero minus that sum as
  the channel's plane of the output block. A strip read from the pad is the plane with a border of zeros, whatever the
  earlier channels left inside the rectangle, because each channel overwrites the whole rectangle before reading. So each
  of the four stored planes is the nine-tap stencil of its own plane of the input block, and the four stores tile the
  output block.
-/
import proofs.«107563_j403726926589_2_alg».proof.Proof.Gen.KernelIdeal.Frame
import proofs.«107563_j403726926589_2_alg».proof.Proof.Taps
import proofs.«107563_j403726926589_2_alg».proof.Proof.ScratchPad
import proofs.«107563_j403726926589_2_alg».proof.Proof.ChannelValue
import Idealize.ShloMosaic.Lib.Pipeline.Value
import Idealize.ShloMosaic.Lib.ValueIdx
import Idealize.ShloMosaic.PureOps.Ideal.Laws

set_option maxRecDepth 16384

noncomputable section

namespace Cert.KernelIdeal.BlockValue

open Cert.KernelIdeal Cert.KernelIdeal.Gen Idealize.ShloMosaic Idealize.ShloMosaic.TcCoe Idealize.ShloMosaic.ValueIdx Idealize.SL.Sem
open Cert.Taps Cert.KernelIdeal.ScratchPad Cert.KernelIdeal.ChannelValue

/-! ## The reads of the two input blocks -/

section Reads

variable (arg1 : Memref sig .tc .vmem S1x4x512x512 .f32) (harg1 : arg1.IsWhole)
  (arg2 : Memref sig .tc .vmem S4x1x3x3 .f32) (harg2 : arg2.IsWhole)
  (x0 : Vec Ideal S1x4x512x512 .f32) (x1 : Vec Ideal S4x1x3x3 .f32)

/-- The plane the body stores in the pad for channel `cn`: the input block's plane `cn`, as a 512 × 512 array. -/
theorem plane_apply (cn : ℕ) (hcn : cn < 4)
    (inb : ∀ a, (![0, cn, 0, 0] : Fin 4 → ℕ) a + S1x1x512x512.size a ≤ S1x4x512x512.size a)
    (hc1 : S1x1x512x512.ShapeCasts S512x512) (hc2 : S512x512.ShapeCasts S512x512) (h q : Fin 512) :
    shapeCast S512x512 (shapeCast S512x512
        (View.readAt (Elt Ideal) arg1.view (Rect.unit (s := S1x4x512x512) ![0, cn, 0, 0] S1x1x512x512.size inb).toLoadRect (harg1.unread x0))
        hc1) hc2 (ix2 h q)
      = x0 (ix4 (0 : Fin 1) (⟨cn, hcn⟩ : Fin 4) h q) := by
  rw [shapeCast_self, shapeCast_apply _ hc1 (ix2 h q) (ix4 (0 : Fin 1) (0 : Fin 1) h q) (by
      rw [Shape.rowMajor_val_two, Shape.rowMajor_val_four]
      show (((0 : ℕ) * 1 + 0) * 512 + h.val) * 512 + q.val = h.val * 512 + q.val
      omega), View.readAt_eq_ld, harg1.read_unread]
  show x0 ((Rect.unit (s := S1x4x512x512) ![0, cn, 0, 0] S1x1x512x512.size inb).toLoadRect.idx (ix4 (0 : Fin 1) (0 : Fin 1) h q)) = _
  congr 1
  funext a
  refine Fin.ext ?_
  match a with
  | ⟨0, _⟩ => show 0 + 1 * 0 = 0; omega
  | ⟨1, _⟩ => show cn + 1 * 0 = cn; omega
  | ⟨2, _⟩ => show 0 + 1 * h.val = h.val; omega
  | ⟨3, _⟩ => show 0 + 1 * q.val = q.val; omega

/-- A tap weight the body extracts: the entry `(cn, 0, i, j)` of the weights. -/
theorem weight_apply (cn i j : ℕ) (hcn : cn < 4) (hi : i < 3) (hj : j < 3)
    (inb : ∀ a, (![cn, 0, i, j] : Fin 4 → ℕ) a + S1x1x1x1.size a ≤ S4x1x3x3.size a) :
    View.readAt (Elt Ideal) arg2.view (Rect.unit (s := S4x1x3x3) ![cn, 0, i, j] S1x1x1x1.size inb).toLoadRect (harg2.unread x1)
        (ix4 (0 : Fin 1) (0 : Fin 1) (0 : Fin 1) (0 : Fin 1))
      = x1 (ix4 (⟨cn, hcn⟩ : Fin 4) (0 : Fin 1) (⟨i, hi⟩ : Fin 3) (⟨j, hj⟩ : Fin 3)) := by
  rw [View.readAt_eq_ld, harg2.read_unread]
  show x1 ((Rect.unit (s := S4x1x3x3) ![cn, 0, i, j] S1x1x1x1.size inb).toLoadRect.idx (ix4 (0 : Fin 1) (0 : Fin 1) (0 : Fin 1) (0 : Fin 1))) = _
  congr 1
  funext a
  refine Fin.ext ?_
  match a with
  | ⟨0, _⟩ => show cn + 1 * 0 = cn; omega
  | ⟨1, _⟩ => show 0 + 1 * 0 = 0; omega
  | ⟨2, _⟩ => show i + 1 * 0 = i; omega
  | ⟨3, _⟩ => show j + 1 * 0 = j; omega

end Reads

/-! ## The pad's border stays zero -/

/-- A strip of the pad, whose newest plane reads `p`, is the zero-bordered `p` at padded coordinates `(r, s + j)`. -/
theorem strip_read (v : View sig .tc .vmem S528x768 .f32)
    (inb : ∀ a, (![8, 128] : Fin 2 → ℕ) a + S512x512.size a ≤ S528x768.size a)
    (Pl : S512x512.Idx → EReal) (L : List (View.Piece (Elt Ideal) S528x768 .f32)) (hL : ZeroBorder L)
    (o : ℕ) (ho : 127 ≤ o ∧ o ≤ 129) (inbL : ∀ a, (![7, o] : Fin 2 → ℕ) a + S514x512.size a ≤ S528x768.size a)
    (p : Fin 512 → Fin 512 → EReal) (hP : ∀ h q, Pl (ix2 h q) = p h q) (j : ℕ) (hj : o - 127 = j)
    (r : Fin 514) (s : Fin 512) :
    v.readCov (⟨Rect.unit (s := S528x768) ![8, 128] S512x512.size inb, Pl⟩ :: L)
        (Rect.unit (s := S528x768) ![7, o] S514x512.size inbL).toLoadRect (ix2 r s)
      = padRead p r.val (s.val + j) := by
  rw [load_eq v inb Pl L hL o ho inbL r s, hj,
    show (fun h q => Pl (ix2 h q)) = p from funext fun h => funext fun q => hP h q]

/-- After the zero fill alone the pad is zero everywhere. -/
theorem zb0 : ZeroBorder [(⟨Rect.unit (s := S528x768) ![0, 0] S528x768.size Facts₀.inb_S528x768_S528x768_0_0, k0_pay1 (F := Ideal)⟩ :
    View.Piece (Elt Ideal) S528x768 .f32)] := by
  intro R C _
  rw [View.canon_unit_zero (funext fun a => by match a with | ⟨0, _⟩ => rfl | ⟨1, _⟩ => rfl) Facts₀.inb_S528x768_S528x768_0_0]
  show shapeCast S528x768 (broadcast S528x768 (Scalar.ofBits (F := Ideal) .f32 0x00000000#32)) Facts₀.shapeCasts_S528x768_S528x768 (ix2 R C) = 0
  rw [shapeCast_self, broadcast_apply]
  exact Ideal.ofBits_zero_f32

section Pad

variable (c : Dev nD) (arg1 : Memref sig .tc .vmem S1x4x512x512 .f32) (harg1 : arg1.IsWhole) (x0 : Vec Ideal S1x4x512x512 .f32)

/-- The border is zero after each channel's plane is stored. -/
theorem zb2 : ZeroBorder (kernelRun0_A.sl.HS0_2 (F := Ideal) c arg1 harg1 x0) := zb0.cons _ _
theorem zb3 : ZeroBorder (kernelRun0_A.sl.HS0_3 (F := Ideal) c arg1 harg1 x0) := (zb2 c arg1 harg1 x0).cons _ _
theorem zb4 : ZeroBorder (kernelRun0_A.sl.HS0_4 (F := Ideal) c arg1 harg1 x0) := (zb3 c arg1 harg1 x0).cons _ _

end Pad

/-! ## The four channels -/

section Channels

variable (c : Dev nD) (arg1 : Memref sig .tc .vmem S1x4x512x512 .f32) (harg1 : arg1.IsWhole)
  (arg2 : Memref sig .tc .vmem S4x1x3x3 .f32) (harg2 : arg2.IsWhole) (arg4 : Memref sig .tc .vmem S528x768 .f32)
  (x0 : Vec Ideal S1x4x512x512 .f32) (x1 : Vec Ideal S4x1x3x3 .f32)

/-- Channel 0's stored block at `(0, 0, h, q)` is the stencil of plane 0 of the input block under channel 0's weights. -/
theorem chan0_apply (h q : Fin 512) :
    (k0_pay5 (kernelRun0_A.sl.v54 (F := Ideal) c arg1 harg1 arg4 x0) (kernelRun0_A.sl.r_1 (F := Ideal) c arg1 harg1 arg2 harg2 arg4 x0 x1) (View.readAt (Elt Ideal) arg2.view (Rect.unit (s := S4x1x3x3) ![0, 0, 2, 2] S1x1x1x1.size Facts₀.inb_S4x1x3x3_S1x1x1x1_0_0_2_2).toLoadRect (harg2.unread x1))) (ix4 (0 : Fin 1) (0 : Fin 1) h q)
      = stencil (fun h q => x0 (ix4 (0 : Fin 1) (0 : Fin 4) h q)) (fun i j => x1 (ix4 (0 : Fin 4) (0 : Fin 1) i j)) h q := by
  show chanVal Facts₀.slices_S514x512_o0_0_S512x512 Facts₀.slices_S514x512_o1_0_S512x512 Facts₀.slices_S514x512_o2_0_S512x512
      Facts₀.inpos_S1x1x1x1_p0_0_0_0 Facts₀.shapeCasts_S512x512_S1x1x512x512
      (kernelRun0_A.sl.v10 (F := Ideal) c arg1 harg1 arg4 x0) (kernelRun0_A.sl.v32 (F := Ideal) c arg1 harg1 arg4 x0) (kernelRun0_A.sl.v54 (F := Ideal) c arg1 harg1 arg4 x0)
      (View.readAt (Elt Ideal) arg2.view (Rect.unit (s := S4x1x3x3) ![0, 0, 0, 0] S1x1x1x1.size Facts₀.inb_S4x1x3x3_S1x1x1x1_0_0_0_0).toLoadRect (harg2.unread x1))
      (View.readAt (Elt Ideal) arg2.view (Rect.unit (s := S4x1x3x3) ![0, 0, 1, 0] S1x1x1x1.size Facts₀.inb_S4x1x3x3_S1x1x1x1_0_0_1_0).toLoadRect (harg2.unread x1))
      (View.readAt (Elt Ideal) arg2.view (Rect.unit (s := S4x1x3x3) ![0, 0, 2, 0] S1x1x1x1.size Facts₀.inb_S4x1x3x3_S1x1x1x1_0_0_2_0).toLoadRect (harg2.unread x1))
      (View.readAt (Elt Ideal) arg2.view (Rect.unit (s := S4x1x3x3) ![0, 0, 0, 1] S1x1x1x1.size Facts₀.inb_S4x1x3x3_S1x1x1x1_0_0_0_1).toLoadRect (harg2.unread x1))
      (View.readAt (Elt Ideal) arg2.view (Rect.unit (s := S4x1x3x3) ![0, 0, 1, 1] S1x1x1x1.size Facts₀.inb_S4x1x3x3_S1x1x1x1_0_0_1_1).toLoadRect (harg2.unread x1))
      (View.readAt (Elt Ideal) arg2.view (Rect.unit (s := S4x1x3x3) ![0, 0, 2, 1] S1x1x1x1.size Facts₀.inb_S4x1x3x3_S1x1x1x1_0_0_2_1).toLoadRect (harg2.unread x1))
      (View.readAt (Elt Ideal) arg2.view (Rect.unit (s := S4x1x3x3) ![0, 0, 0, 2] S1x1x1x1.size Facts₀.inb_S4x1x3x3_S1x1x1x1_0_0_0_2).toLoadRect (harg2.unread x1))
      (View.readAt (Elt Ideal) arg2.view (Rect.unit (s := S4x1x3x3) ![0, 0, 1, 2] S1x1x1x1.size Facts₀.inb_S4x1x3x3_S1x1x1x1_0_0_1_2).toLoadRect (harg2.unread x1))
      (View.readAt (Elt Ideal) arg2.view (Rect.unit (s := S4x1x3x3) ![0, 0, 2, 2] S1x1x1x1.size Facts₀.inb_S4x1x3x3_S1x1x1x1_0_0_2_2).toLoadRect (harg2.unread x1))
      (ix4 (0 : Fin 1) (0 : Fin 1) h q) = _
  exact chanVal_apply _ _ _ _ _ _ _ _ _ _ _ _ _ _ _ _ _
    (fun h q => x0 (ix4 (0 : Fin 1) (0 : Fin 4) h q)) (fun i j => x1 (ix4 (0 : Fin 4) (0 : Fin 1) i j))
    (fun r s => strip_read arg4.view Facts₀.inb_S528x768_S512x512_8_128 (k0_pay2 (View.readAt (Elt Ideal) arg1.view (Rect.unit (s := S1x4x512x512) ![0, 0, 0, 0] S1x1x512x512.size Facts₀.inb_S1x4x512x512_S1x1x512x512_0_0_0_0).toLoadRect (harg1.unread x0))) _ zb0 127 (by omega) Facts₀.inb_S528x768_S514x512_7_127
        (fun h q => x0 (ix4 (0 : Fin 1) (0 : Fin 4) h q)) (fun h q => plane_apply arg1 harg1 x0 0 (by omega) _ _ _ h q) 0 rfl r s)
    (fun r s => strip_read arg4.view Facts₀.inb_S528x768_S512x512_8_128 (k0_pay2 (View.readAt (Elt Ideal) arg1.view (Rect.unit (s := S1x4x512x512) ![0, 0, 0, 0] S1x1x512x512.size Facts₀.inb_S1x4x512x512_S1x1x512x512_0_0_0_0).toLoadRect (harg1.unread x0))) _ zb0 128 (by omega) Facts₀.inb_S528x768_S514x512_7_128
        (fun h q => x0 (ix4 (0 : Fin 1) (0 : Fin 4) h q)) (fun h q => plane_apply arg1 harg1 x0 0 (by omega) _ _ _ h q) 1 rfl r s)
    (fun r s => strip_read arg4.view Facts₀.inb_S528x768_S512x512_8_128 (k0_pay2 (View.readAt (Elt Ideal) arg1.view (Rect.unit (s := S1x4x512x512) ![0, 0, 0, 0] S1x1x512x512.size Facts₀.inb_S1x4x512x512_S1x1x512x512_0_0_0_0).toLoadRect (harg1.unread x0))) _ zb0 129 (by omega) Facts₀.inb_S528x768_S514x512_7_129
        (fun h q => x0 (ix4 (0 : Fin 1) (0 : Fin 4) h q)) (fun h q => plane_apply arg1 harg1 x0 0 (by omega) _ _ _ h q) 2 rfl r s)
    (weight_apply arg2 harg2 x1 0 0 0 (by omega) (by omega) (by omega) _)
    (weight_apply arg2 harg2 x1 0 1 0 (by omega) (by omega) (by omega) _)
    (weight_apply arg2 harg2 x1 0 2 0 (by omega) (by omega) (by omega) _)
    (weight_apply arg2 harg2 x1 0 0 1 (by omega) (by omega) (by omega) _)
    (weight_apply arg2 harg2 x1 0 1 1 (by omega) (by omega) (by omega) _)
    (weight_apply arg2 harg2 x1 0 2 1 (by omega) (by omega) (by omega) _)
    (weight_apply arg2 harg2 x1 0 0 2 (by omega) (by omega) (by omega) _)
    (weight_apply arg2 harg2 x1 0 1 2 (by omega) (by omega) (by omega) _)
    (weight_apply arg2 harg2 x1 0 2 2 (by omega) (by omega) (by omega) _)
    h q

/-- Channel 1's stored block at `(0, 0, h, q)` is the stencil of plane 1 of the input block under channel 1's weights. -/
theorem chan1_apply (h q : Fin 512) :
    (k0_pay11 (kernelRun0_A.sl.r_4 (F := Ideal) c arg1 harg1 arg2 harg2 arg4 x0 x1) (kernelRun0_A.sl.v131 (F := Ideal) c arg1 harg1 arg4 x0) (kernelRun0_A.sl.r_5 (F := Ideal) c arg1 harg1 arg2 harg2 arg4 x0 x1) (View.readAt (Elt Ideal) arg2.view (Rect.unit (s := S4x1x3x3) ![1, 0, 1, 2] S1x1x1x1.size Facts₀.inb_S4x1x3x3_S1x1x1x1_1_0_1_2).toLoadRect (harg2.unread x1)) (View.readAt (Elt Ideal) arg2.view (Rect.unit (s := S4x1x3x3) ![1, 0, 2, 2] S1x1x1x1.size Facts₀.inb_S4x1x3x3_S1x1x1x1_1_0_2_2).toLoadRect (harg2.unread x1))) (ix4 (0 : Fin 1) (0 : Fin 1) h q)
      = stencil (fun h q => x0 (ix4 (0 : Fin 1) (1 : Fin 4) h q)) (fun i j => x1 (ix4 (1 : Fin 4) (0 : Fin 1) i j)) h q := by
  show chanVal Facts₀.slices_S514x512_o0_0_S512x512 Facts₀.slices_S514x512_o1_0_S512x512 Facts₀.slices_S514x512_o2_0_S512x512
      Facts₀.inpos_S1x1x1x1_p0_0_0_0 Facts₀.shapeCasts_S512x512_S1x1x512x512
      (kernelRun0_A.sl.v87 (F := Ideal) c arg1 harg1 arg4 x0) (kernelRun0_A.sl.v109 (F := Ideal) c arg1 harg1 arg4 x0) (kernelRun0_A.sl.v131 (F := Ideal) c arg1 harg1 arg4 x0)
      (View.readAt (Elt Ideal) arg2.view (Rect.unit (s := S4x1x3x3) ![1, 0, 0, 0] S1x1x1x1.size Facts₀.inb_S4x1x3x3_S1x1x1x1_1_0_0_0).toLoadRect (harg2.unread x1))
      (View.readAt (Elt Ideal) arg2.view (Rect.unit (s := S4x1x3x3) ![1, 0, 1, 0] S1x1x1x1.size Facts₀.inb_S4x1x3x3_S1x1x1x1_1_0_1_0).toLoadRect (harg2.unread x1))
      (View.readAt (Elt Ideal) arg2.view (Rect.unit (s := S4x1x3x3) ![1, 0, 2, 0] S1x1x1x1.size Facts₀.inb_S4x1x3x3_S1x1x1x1_1_0_2_0).toLoadRect (harg2.unread x1))
      (View.readAt (Elt Ideal) arg2.view (Rect.unit (s := S4x1x3x3) ![1, 0, 0, 1] S1x1x1x1.size Facts₀.inb_S4x1x3x3_S1x1x1x1_1_0_0_1).toLoadRect (harg2.unread x1))
      (View.readAt (Elt Ideal) arg2.view (Rect.unit (s := S4x1x3x3) ![1, 0, 1, 1] S1x1x1x1.size Facts₀.inb_S4x1x3x3_S1x1x1x1_1_0_1_1).toLoadRect (harg2.unread x1))
      (View.readAt (Elt Ideal) arg2.view (Rect.unit (s := S4x1x3x3) ![1, 0, 2, 1] S1x1x1x1.size Facts₀.inb_S4x1x3x3_S1x1x1x1_1_0_2_1).toLoadRect (harg2.unread x1))
      (View.readAt (Elt Ideal) arg2.view (Rect.unit (s := S4x1x3x3) ![1, 0, 0, 2] S1x1x1x1.size Facts₀.inb_S4x1x3x3_S1x1x1x1_1_0_0_2).toLoadRect (harg2.unread x1))
      (View.readAt (Elt Ideal) arg2.view (Rect.unit (s := S4x1x3x3) ![1, 0, 1, 2] S1x1x1x1.size Facts₀.inb_S4x1x3x3_S1x1x1x1_1_0_1_2).toLoadRect (harg2.unread x1))
      (View.readAt (Elt Ideal) arg2.view (Rect.unit (s := S4x1x3x3) ![1, 0, 2, 2] S1x1x1x1.size Facts₀.inb_S4x1x3x3_S1x1x1x1_1_0_2_2).toLoadRect (harg2.unread x1))
      (ix4 (0 : Fin 1) (0 : Fin 1) h q) = _
  exact chanVal_apply _ _ _ _ _ _ _ _ _ _ _ _ _ _ _ _ _
    (fun h q => x0 (ix4 (0 : Fin 1) (1 : Fin 4) h q)) (fun i j => x1 (ix4 (1 : Fin 4) (0 : Fin 1) i j))
    (fun r s => strip_read arg4.view Facts₀.inb_S528x768_S512x512_8_128 (k0_pay6 (View.readAt (Elt Ideal) arg1.view (Rect.unit (s := S1x4x512x512) ![0, 1, 0, 0] S1x1x512x512.size Facts₀.inb_S1x4x512x512_S1x1x512x512_0_1_0_0).toLoadRect (harg1.unread x0))) _ (zb2 c arg1 harg1 x0) 127 (by omega) Facts₀.inb_S528x768_S514x512_7_127
        (fun h q => x0 (ix4 (0 : Fin 1) (1 : Fin 4) h q)) (fun h q => plane_apply arg1 harg1 x0 1 (by omega) _ _ _ h q) 0 rfl r s)
    (fun r s => strip_read arg4.view Facts₀.inb_S528x768_S512x512_8_128 (k0_pay6 (View.readAt (Elt Ideal) arg1.view (Rect.unit (s := S1x4x512x512) ![0, 1, 0, 0] S1x1x512x512.size Facts₀.inb_S1x4x512x512_S1x1x512x512_0_1_0_0).toLoadRect (harg1.unread x0))) _ (zb2 c arg1 harg1 x0) 128 (by omega) Facts₀.inb_S528x768_S514x512_7_128
        (fun h q => x0 (ix4 (0 : Fin 1) (1 : Fin 4) h q)) (fun h q => plane_apply arg1 harg1 x0 1 (by omega) _ _ _ h q) 1 rfl r s)
    (fun r s => strip_read arg4.view Facts₀.inb_S528x768_S512x512_8_128 (k0_pay6 (View.readAt (Elt Ideal) arg1.view (Rect.unit (s := S1x4x512x512) ![0, 1, 0, 0] S1x1x512x512.size Facts₀.inb_S1x4x512x512_S1x1x512x512_0_1_0_0).toLoadRect (harg1.unread x0))) _ (zb2 c arg1 harg1 x0) 129 (by omega) Facts₀.inb_S528x768_S514x512_7_129
        (fun h q => x0 (ix4 (0 : Fin 1) (1 : Fin 4) h q)) (fun h q => plane_apply arg1 harg1 x0 1 (by omega) _ _ _ h q) 2 rfl r s)
    (weight_apply arg2 harg2 x1 1 0 0 (by omega) (by omega) (by omega) _)
    (weight_apply arg2 harg2 x1 1 1 0 (by omega) (by omega) (by omega) _)
    (weight_apply arg2 harg2 x1 1 2 0 (by omega) (by omega) (by omega) _)
    (weight_apply arg2 harg2 x1 1 0 1 (by omega) (by omega) (by omega) _)
    (weight_apply arg2 harg2 x1 1 1 1 (by omega) (by omega) (by omega) _)
    (weight_apply arg2 harg2 x1 1 2 1 (by omega) (by omega) (by omega) _)
    (weight_apply arg2 harg2 x1 1 0 2 (by omega) (by omega) (by omega) _)
    (weight_apply arg2 harg2 x1 1 1 2 (by omega) (by omega) (by omega) _)
    (weight_apply arg2 harg2 x1 1 2 2 (by omega) (by omega) (by omega) _)
    h q

/-- Channel 2's stored block at `(0, 0, h, q)` is the stencil of plane 2 of the input block under channel 2's weights. -/
theorem chan2_apply (h q : Fin 512) :
    (k0_pay18 (kernelRun0_A.sl.r_8 (F := Ideal) c arg1 harg1 arg2 harg2 arg4 x0 x1) (kernelRun0_A.sl.r_9 (F := Ideal) c arg1 harg1 arg2 harg2 arg4 x0 x1) (kernelRun0_A.sl.v208 (F := Ideal) c arg1 harg1 arg4 x0) (View.readAt (Elt Ideal) arg2.view (Rect.unit (s := S4x1x3x3) ![2, 0, 0, 2] S1x1x1x1.size Facts₀.inb_S4x1x3x3_S1x1x1x1_2_0_0_2).toLoadRect (harg2.unread x1)) (View.readAt (Elt Ideal) arg2.view (Rect.unit (s := S4x1x3x3) ![2, 0, 1, 2] S1x1x1x1.size Facts₀.inb_S4x1x3x3_S1x1x1x1_2_0_1_2).toLoadRect (harg2.unread x1)) (View.readAt (Elt Ideal) arg2.view (Rect.unit (s := S4x1x3x3) ![2, 0, 2, 2] S1x1x1x1.size Facts₀.inb_S4x1x3x3_S1x1x1x1_2_0_2_2).toLoadRect (harg2.unread x1))) (ix4 (0 : Fin 1) (0 : Fin 1) h q)
      = stencil (fun h q => x0 (ix4 (0 : Fin 1) (2 : Fin 4) h q)) (fun i j => x1 (ix4 (2 : Fin 4) (0 : Fin 1) i j)) h q := by
  show chanVal Facts₀.slices_S514x512_o0_0_S512x512 Facts₀.slices_S514x512_o1_0_S512x512 Facts₀.slices_S514x512_o2_0_S512x512
      Facts₀.inpos_S1x1x1x1_p0_0_0_0 Facts₀.shapeCasts_S512x512_S1x1x512x512
      (kernelRun0_A.sl.v164 (F := Ideal) c arg1 harg1 arg4 x0) (kernelRun0_A.sl.v186 (F := Ideal) c arg1 harg1 arg4 x0) (kernelRun0_A.sl.v208 (F := Ideal) c arg1 harg1 arg4 x0)
      (View.readAt (Elt Ideal) arg2.view (Rect.unit (s := S4x1x3x3) ![2, 0, 0, 0] S1x1x1x1.size Facts₀.inb_S4x1x3x3_S1x1x1x1_2_0_0_0).toLoadRect (harg2.unread x1))
      (View.readAt (Elt Ideal) arg2.view (Rect.unit (s := S4x1x3x3) ![2, 0, 1, 0] S1x1x1x1.size Facts₀.inb_S4x1x3x3_S1x1x1x1_2_0_1_0).toLoadRect (harg2.unread x1))
      (View.readAt (Elt Ideal) arg2.view (Rect.unit (s := S4x1x3x3) ![2, 0, 2, 0] S1x1x1x1.size Facts₀.inb_S4x1x3x3_S1x1x1x1_2_0_2_0).toLoadRect (harg2.unread x1))
      (View.readAt (Elt Ideal) arg2.view (Rect.unit (s := S4x1x3x3) ![2, 0, 0, 1] S1x1x1x1.size Facts₀.inb_S4x1x3x3_S1x1x1x1_2_0_0_1).toLoadRect (harg2.unread x1))
      (View.readAt (Elt Ideal) arg2.view (Rect.unit (s := S4x1x3x3) ![2, 0, 1, 1] S1x1x1x1.size Facts₀.inb_S4x1x3x3_S1x1x1x1_2_0_1_1).toLoadRect (harg2.unread x1))
      (View.readAt (Elt Ideal) arg2.view (Rect.unit (s := S4x1x3x3) ![2, 0, 2, 1] S1x1x1x1.size Facts₀.inb_S4x1x3x3_S1x1x1x1_2_0_2_1).toLoadRect (harg2.unread x1))
      (View.readAt (Elt Ideal) arg2.view (Rect.unit (s := S4x1x3x3) ![2, 0, 0, 2] S1x1x1x1.size Facts₀.inb_S4x1x3x3_S1x1x1x1_2_0_0_2).toLoadRect (harg2.unread x1))
      (View.readAt (Elt Ideal) arg2.view (Rect.unit (s := S4x1x3x3) ![2, 0, 1, 2] S1x1x1x1.size Facts₀.inb_S4x1x3x3_S1x1x1x1_2_0_1_2).toLoadRect (harg2.unread x1))
      (View.readAt (Elt Ideal) arg2.view (Rect.unit (s := S4x1x3x3) ![2, 0, 2, 2] S1x1x1x1.size Facts₀.inb_S4x1x3x3_S1x1x1x1_2_0_2_2).toLoadRect (harg2.unread x1))
      (ix4 (0 : Fin 1) (0 : Fin 1) h q) = _
  exact chanVal_apply _ _ _ _ _ _ _ _ _ _ _ _ _ _ _ _ _
    (fun h q => x0 (ix4 (0 : Fin 1) (2 : Fin 4) h q)) (fun i j => x1 (ix4 (2 : Fin 4) (0 : Fin 1) i j))
    (fun r s => strip_read arg4.view Facts₀.inb_S528x768_S512x512_8_128 (k0_pay12 (View.readAt (Elt Ideal) arg1.view (Rect.unit (s := S1x4x512x512) ![0, 2, 0, 0] S1x1x512x512.size Facts₀.inb_S1x4x512x512_S1x1x512x512_0_2_0_0).toLoadRect (harg1.unread x0))) _ (zb3 c arg1 harg1 x0) 127 (by omega) Facts₀.inb_S528x768_S514x512_7_127
        (fun h q => x0 (ix4 (0 : Fin 1) (2 : Fin 4) h q)) (fun h q => plane_apply arg1 harg1 x0 2 (by omega) _ _ _ h q) 0 rfl r s)
    (fun r s => strip_read arg4.view Facts₀.inb_S528x768_S512x512_8_128 (k0_pay12 (View.readAt (Elt Ideal) arg1.view (Rect.unit (s := S1x4x512x512) ![0, 2, 0, 0] S1x1x512x512.size Facts₀.inb_S1x4x512x512_S1x1x512x512_0_2_0_0).toLoadRect (harg1.unread x0))) _ (zb3 c arg1 harg1 x0) 128 (by omega) Facts₀.inb_S528x768_S514x512_7_128
        (fun h q => x0 (ix4 (0 : Fin 1) (2 : Fin 4) h q)) (fun h q => plane_apply arg1 harg1 x0 2 (by omega) _ _ _ h q) 1 rfl r s)
    (fun r s => strip_read arg4.view Facts₀.inb_S528x768_S512x512_8_128 (k0_pay12 (View.readAt (Elt Ideal) arg1.view (Rect.unit (s := S1x4x512x512) ![0, 2, 0, 0] S1x1x512x512.size Facts₀.inb_S1x4x512x512_S1x1x512x512_0_2_0_0).toLoadRect (harg1.unread x0))) _ (zb3 c arg1 harg1 x0) 129 (by omega) Facts₀.inb_S528x768_S514x512_7_129
        (fun h q => x0 (ix4 (0 : Fin 1) (2 : Fin 4) h q)) (fun h q => plane_apply arg1 harg1 x0 2 (by omega) _ _ _ h q) 2 rfl r s)
    (weight_apply arg2 harg2 x1 2 0 0 (by omega) (by omega) (by omega) _)
    (weight_apply arg2 harg2 x1 2 1 0 (by omega) (by omega) (by omega) _)
    (weight_apply arg2 harg2 x1 2 2 0 (by omega) (by omega) (by omega) _)
    (weight_apply arg2 harg2 x1 2 0 1 (by omega) (by omega) (by omega) _)
    (weight_apply arg2 harg2 x1 2 1 1 (by omega) (by omega) (by omega) _)
    (weight_apply arg2 harg2 x1 2 2 1 (by omega) (by omega) (by omega) _)
    (weight_apply arg2 harg2 x1 2 0 2 (by omega) (by omega) (by omega) _)
    (weight_apply arg2 harg2 x1 2 1 2 (by omega) (by omega) (by omega) _)
    (weight_apply arg2 harg2 x1 2 2 2 (by omega) (by omega) (by omega) _)
    h q

/-- Channel 3's stored block at `(0, 0, h, q)` is the stencil of plane 3 of the input block under channel 3's weights. -/
theorem chan3_apply (h q : Fin 512) :
    (kernelRun0_A.sl.r_13 (F := Ideal) c arg1 harg1 arg2 harg2 arg4 x0 x1) (ix4 (0 : Fin 1) (0 : Fin 1) h q)
      = stencil (fun h q => x0 (ix4 (0 : Fin 1) (3 : Fin 4) h q)) (fun i j => x1 (ix4 (3 : Fin 4) (0 : Fin 1) i j)) h q := by
  show chanVal Facts₀.slices_S514x512_o0_0_S512x512 Facts₀.slices_S514x512_o1_0_S512x512 Facts₀.slices_S514x512_o2_0_S512x512
      Facts₀.inpos_S1x1x1x1_p0_0_0_0 Facts₀.shapeCasts_S512x512_S1x1x512x512
      (kernelRun0_A.sl.v241 (F := Ideal) c arg1 harg1 arg4 x0) (kernelRun0_A.sl.v263 (F := Ideal) c arg1 harg1 arg4 x0) (kernelRun0_A.sl.v285 (F := Ideal) c arg1 harg1 arg4 x0)
      (View.readAt (Elt Ideal) arg2.view (Rect.unit (s := S4x1x3x3) ![3, 0, 0, 0] S1x1x1x1.size Facts₀.inb_S4x1x3x3_S1x1x1x1_3_0_0_0).toLoadRect (harg2.unread x1))
      (View.readAt (Elt Ideal) arg2.view (Rect.unit (s := S4x1x3x3) ![3, 0, 1, 0] S1x1x1x1.size Facts₀.inb_S4x1x3x3_S1x1x1x1_3_0_1_0).toLoadRect (harg2.unread x1))
      (View.readAt (Elt Ideal) arg2.view (Rect.unit (s := S4x1x3x3) ![3, 0, 2, 0] S1x1x1x1.size Facts₀.inb_S4x1x3x3_S1x1x1x1_3_0_2_0).toLoadRect (harg2.unread x1))
      (View.readAt (Elt Ideal) arg2.view (Rect.unit (s := S4x1x3x3) ![3, 0, 0, 1] S1x1x1x1.size Facts₀.inb_S4x1x3x3_S1x1x1x1_3_0_0_1).toLoadRect (harg2.unread x1))
      (View.readAt (Elt Ideal) arg2.view (Rect.unit (s := S4x1x3x3) ![3, 0, 1, 1] S1x1x1x1.size Facts₀.inb_S4x1x3x3_S1x1x1x1_3_0_1_1).toLoadRect (harg2.unread x1))
      (View.readAt (Elt Ideal) arg2.view (Rect.unit (s := S4x1x3x3) ![3, 0, 2, 1] S1x1x1x1.size Facts₀.inb_S4x1x3x3_S1x1x1x1_3_0_2_1).toLoadRect (harg2.unread x1))
      (View.readAt (Elt Ideal) arg2.view (Rect.unit (s := S4x1x3x3) ![3, 0, 0, 2] S1x1x1x1.size Facts₀.inb_S4x1x3x3_S1x1x1x1_3_0_0_2).toLoadRect (harg2.unread x1))
      (View.readAt (Elt Ideal) arg2.view (Rect.unit (s := S4x1x3x3) ![3, 0, 1, 2] S1x1x1x1.size Facts₀.inb_S4x1x3x3_S1x1x1x1_3_0_1_2).toLoadRect (harg2.unread x1))
      (View.readAt (Elt Ideal) arg2.view (Rect.unit (s := S4x1x3x3) ![3, 0, 2, 2] S1x1x1x1.size Facts₀.inb_S4x1x3x3_S1x1x1x1_3_0_2_2).toLoadRect (harg2.unread x1))
      (ix4 (0 : Fin 1) (0 : Fin 1) h q) = _
  exact chanVal_apply _ _ _ _ _ _ _ _ _ _ _ _ _ _ _ _ _
    (fun h q => x0 (ix4 (0 : Fin 1) (3 : Fin 4) h q)) (fun i j => x1 (ix4 (3 : Fin 4) (0 : Fin 1) i j))
    (fun r s => strip_read arg4.view Facts₀.inb_S528x768_S512x512_8_128 (k0_pay19 (View.readAt (Elt Ideal) arg1.view (Rect.unit (s := S1x4x512x512) ![0, 3, 0, 0] S1x1x512x512.size Facts₀.inb_S1x4x512x512_S1x1x512x512_0_3_0_0).toLoadRect (harg1.unread x0))) _ (zb4 c arg1 harg1 x0) 127 (by omega) Facts₀.inb_S528x768_S514x512_7_127
        (fun h q => x0 (ix4 (0 : Fin 1) (3 : Fin 4) h q)) (fun h q => plane_apply arg1 harg1 x0 3 (by omega) _ _ _ h q) 0 rfl r s)
    (fun r s => strip_read arg4.view Facts₀.inb_S528x768_S512x512_8_128 (k0_pay19 (View.readAt (Elt Ideal) arg1.view (Rect.unit (s := S1x4x512x512) ![0, 3, 0, 0] S1x1x512x512.size Facts₀.inb_S1x4x512x512_S1x1x512x512_0_3_0_0).toLoadRect (harg1.unread x0))) _ (zb4 c arg1 harg1 x0) 128 (by omega) Facts₀.inb_S528x768_S514x512_7_128
        (fun h q => x0 (ix4 (0 : Fin 1) (3 : Fin 4) h q)) (fun h q => plane_apply arg1 harg1 x0 3 (by omega) _ _ _ h q) 1 rfl r s)
    (fun r s => strip_read arg4.view Facts₀.inb_S528x768_S512x512_8_128 (k0_pay19 (View.readAt (Elt Ideal) arg1.view (Rect.unit (s := S1x4x512x512) ![0, 3, 0, 0] S1x1x512x512.size Facts₀.inb_S1x4x512x512_S1x1x512x512_0_3_0_0).toLoadRect (harg1.unread x0))) _ (zb4 c arg1 harg1 x0) 129 (by omega) Facts₀.inb_S528x768_S514x512_7_129
        (fun h q => x0 (ix4 (0 : Fin 1) (3 : Fin 4) h q)) (fun h q => plane_apply arg1 harg1 x0 3 (by omega) _ _ _ h q) 2 rfl r s)
    (weight_apply arg2 harg2 x1 3 0 0 (by omega) (by omega) (by omega) _)
    (weight_apply arg2 harg2 x1 3 1 0 (by omega) (by omega) (by omega) _)
    (weight_apply arg2 harg2 x1 3 2 0 (by omega) (by omega) (by omega) _)
    (weight_apply arg2 harg2 x1 3 0 1 (by omega) (by omega) (by omega) _)
    (weight_apply arg2 harg2 x1 3 1 1 (by omega) (by omega) (by omega) _)
    (weight_apply arg2 harg2 x1 3 2 1 (by omega) (by omega) (by omega) _)
    (weight_apply arg2 harg2 x1 3 0 2 (by omega) (by omega) (by omega) _)
    (weight_apply arg2 harg2 x1 3 1 2 (by omega) (by omega) (by omega) _)
    (weight_apply arg2 harg2 x1 3 2 2 (by omega) (by omega) (by omega) _)
    h q

end Channels

/-! ## The block -/

/-- A stored `[1, 1, 512, 512]` plane that is the stencil of plane `cn` agrees with the block's specification where
    its rectangle (channel `cn` of the `[1, 4, 512, 512]` block) puts it. -/
theorem piece_ok (x0 : Vec Ideal S1x4x512x512 .f32) (x1 : Vec Ideal S4x1x3x3 .f32) (cn : ℕ) (hcn : cn < 4)
    (inb : ∀ a, (![0, cn, 0, 0] : Fin 4 → ℕ) a + (![1, 1, 512, 512] : Fin 4 → ℕ) a ≤ S1x4x512x512.size a)
    (pay : S1x1x512x512.Idx → EReal)
    (hpay : ∀ h q : Fin 512, pay (ix4 (0 : Fin 1) (0 : Fin 1) h q)
      = stencil (fun h q => x0 (ix4 (0 : Fin 1) (⟨cn, hcn⟩ : Fin 4) h q)) (fun i j => x1 (ix4 (⟨cn, hcn⟩ : Fin 4) (0 : Fin 1) i j)) h q)
    (x : S1x1x512x512.Idx) :
    pay x = Gblk x0 x1 ((Rect.unit (s := S1x4x512x512) ![0, cn, 0, 0] ![1, 1, 512, 512] inb).emb x) := by
  obtain ⟨a, b, h, q, rfl⟩ : ∃ (a b : Fin 1) (h q : Fin 512), x = ix4 a b h q := ⟨x 0, x 1, x 2, x 3, eq_ix4 x⟩
  obtain rfl : a = 0 := Subsingleton.elim _ _
  obtain rfl : b = 0 := Subsingleton.elim _ _
  have e : (Rect.unit (s := S1x4x512x512) ![0, cn, 0, 0] ![1, 1, 512, 512] inb).emb (ix4 (0 : Fin 1) (0 : Fin 1) h q)
      = (ix4 (0 : Fin 1) (⟨cn, hcn⟩ : Fin 4) h q : S1x4x512x512.Idx) := by
    funext a
    refine Fin.ext ?_
    rw [Rect.emb_apply]
    match a with
    | ⟨0, _⟩ => show 0 + 1 * 0 = 0; omega
    | ⟨1, _⟩ => show cn + 1 * 0 = cn; omega
    | ⟨2, _⟩ => show 0 + 1 * h.val = h.val; omega
    | ⟨3, _⟩ => show 0 + 1 * q.val = q.val; omega
  rw [hpay, e]
  rfl

/-- The four stores of the body, read back, are the stencil of the point's input block under the weights. -/
theorem out_eq (c : Dev nD) (i : grid0.Coords) (arg1 : Memref sig .tc .vmem S1x4x512x512 .f32) (harg1 : arg1.IsWhole)
    (arg2 : Memref sig .tc .vmem S4x1x3x3 .f32) (harg2 : arg2.IsWhole) (arg3 : Memref sig .tc .vmem S1x4x512x512 .f32) (harg3 : arg3.IsWhole)
    (arg4 : Memref sig .tc .vmem S528x768 .f32) (harg4 : arg4.IsWhole)
    (x0 : Vec Ideal S1x4x512x512 .f32) (x1 : Vec Ideal S4x1x3x3 .f32) :
    out0_A_2 (F := Ideal) c i arg1 harg1 arg2 harg2 arg3 harg3 arg4 harg4 x0 x1 = Cert.Taps.Gblk x0 x1 := by
  unfold out0_A_2
  rw [View.read_writes_eq_canon _ _ _ (cover0_A_2 c i arg1 harg1 arg2 harg2 arg3 harg3 arg4 harg4 x0 x1)]
  funext y
  refine View.canon_apply_of_pieces (Gblk x0 x1) _ ?_ y (cover0_A_2 c i arg1 harg1 arg2 harg2 arg3 harg3 arg4 harg4 x0 x1 y)
  unfold kernelRun0_A
  dsimp only
  intro pc hpc x
  simp only [List.mem_cons, List.not_mem_nil, or_false] at hpc
  rcases hpc with rfl | rfl | rfl | rfl
  · exact piece_ok x0 x1 3 (by omega) Facts₀.inb_S1x4x512x512_S1x1x512x512_0_3_0_0 _ (chan3_apply c arg1 harg1 arg2 harg2 arg4 x0 x1) x
  · exact piece_ok x0 x1 2 (by omega) Facts₀.inb_S1x4x512x512_S1x1x512x512_0_2_0_0 _ (chan2_apply c arg1 harg1 arg2 harg2 arg4 x0 x1) x
  · exact piece_ok x0 x1 1 (by omega) Facts₀.inb_S1x4x512x512_S1x1x512x512_0_1_0_0 _ (chan1_apply c arg1 harg1 arg2 harg2 arg4 x0 x1) x
  · exact piece_ok x0 x1 0 (by omega) Facts₀.inb_S1x4x512x512_S1x1x512x512_0_0_0_0 _ (chan0_apply c arg1 harg1 arg2 harg2 arg4 x0 x1) x

end Cert.KernelIdeal.BlockValue

end
-- ==== Proof.ArrayValue.lean ====
/-
  From one grid point's block to the whole result array.

  The grid has 32 points, one per batch element. Point `t` reads block `(t, 0, 0, 0)` of the input, of shape
  [1, 4, 512, 512] — batch element `t`, all four channels — and the whole [4, 1, 3, 3] table of weights, and writes
  block `(t, 0, 0, 0)` of the result, again of shape [1, 4, 512, 512]. The stencil at `(b, c, h, q)` reads the
  input only in plane `(b, c)` and the weights only in channel `c`'s 3×3 table, so the block of the whole-array
  function `Taps.G x w` at batch element `b` is the one-element function `Taps.Gblk` of block `b` of `x` and of `w`:
      G x w (b, c, h, q) = Gblk (x restricted to batch element b) w (0, c, h, q).
  Each point therefore writes back its block of `G` of the two argument arrays; the 32 blocks tile the array along
  the batch axis (the point that covers batch index `b` is `b` itself), so the array ends holding `G` everywhere.
-/
import proofs.«107563_j403726926589_2_alg».proof.Proof.Gen.KernelIdeal.Value
import proofs.«107563_j403726926589_2_alg».proof.Proof.BlockValue
import proofs.«107563_j403726926589_2_alg».proof.Proof.Taps
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.Value Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The block indices -/

/-- The three index maps, decided over the 32 grid points: the input's and the result's block index at point `t` is
    `(t, 0, 0, 0)`, the weights' is `(0, 0, 0, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-! ## One batch element of the stencil -/

/-- The stencil of the whole input at batch index `n` is the one-element stencil of any `x0` that agrees with the
    input's batch element `n` (`hx`) under any `w0` that agrees with the weights (`hw`): at an index `k` of the array
    with batch coordinate `n` and the other three coordinates those of the block index `y`. -/
theorem Gblk_eq_G (x : S32x4x512x512.Idx → EReal) (w : S4x1x3x3.Idx → EReal)
    (x0 : S1x4x512x512.Idx → EReal) (w0 : S4x1x3x3.Idx → EReal) (n : ℕ)
    (hx : ∀ (y : S1x4x512x512.Idx) (k : S32x4x512x512.Idx), (k 0).val = n → (k 1).val = (y 1).val →
      (k 2).val = (y 2).val → (k 3).val = (y 3).val → x0 y = x k)
    (hw : ∀ y, w0 y = w y)
    (y : S1x4x512x512.Idx) (k : S32x4x512x512.Idx)
    (hk0 : (k 0).val = n) (hk1 : (k 1).val = (y 1).val) (hk2 : (k 2).val = (y 2).val) (hk3 : (k 3).val = (y 3).val) :
    Cert.Taps.Gblk x0 w0 y = Cert.Taps.G x w k := by
  obtain ⟨y0, y1, y2, y3, rfl⟩ : ∃ (y0 : Fin 1) (y1 : Fin 4) (y2 y3 : Fin 512), y = ix4 y0 y1 y2 y3 :=
    ⟨y 0, y 1, y 2, y 3, eq_ix4 y⟩
  obtain ⟨k0, k1, k2, k3, rfl⟩ : ∃ (k0 : Fin 32) (k1 : Fin 4) (k2 k3 : Fin 512), k = ix4 k0 k1 k2 k3 :=
    ⟨k 0, k 1, k 2, k 3, eq_ix4 k⟩
  have e1 : k1 = y1 := Fin.ext hk1
  have e2 : k2 = y2 := Fin.ext hk2
  have e3 : k3 = y3 := Fin.ext hk3
  subst e1 e2 e3
  -- the plane the stencil reads and the table it reads are the same functions on both sides
  have ex : (fun h q => x0 (ix4 0 k1 h q)) = fun h q => x (ix4 k0 k1 h q) :=
    funext fun h => funext fun q => hx _ _ hk0 rfl rfl rfl
  have ew : (fun i j => w0 (ix4 k1 0 i j)) = fun i j => w (ix4 k1 0 i j) :=
    funext fun i => funext fun j => hw _
  show Cert.Taps.stencil (fun h q => x0 (ix4 0 k1 h q)) (fun i j => w0 (ix4 k1 0 i j)) k2 k3
      = Cert.Taps.stencil (fun h q => x (ix4 k0 k1 h q)) (fun i j => w (ix4 k1 0 i j)) k2 k3
  rw [ex, ew]

/-! ## The input blocks as parts of the argument arrays -/

/-- The input's block at point `t` is batch element `t` of the first argument: its entry at `y` is the argument's at
    the index with batch coordinate `t` and `y`'s other three coordinates. -/
theorem iblk0_apply (c : Dev nD) (t : Fin cfg0.N) (y : S1x4x512x512.Idx) (k : S32x4x512x512.Idx)
    (hk0 : (k 0).val = t.val) (hk1 : (k 1).val = (y 1).val) (hk2 : (k 2).val = (y 2).val) (hk3 : (k 3).val = (y 3).val) :
    (iblk m c 0 t : Vec Ideal S1x4x512x512 .f32) y = (V m c main_arg0 : S32x4x512x512.Idx → EReal) k := by
  obtain ⟨e0, e1, e2, e3, -⟩ := idx_facts t
  unfold iblk
  rw [View.read_apply]
  show V m c main_arg0 _ = V m c main_arg0 _
  refine congrArg _ ?_
  funext a
  apply Fin.ext
  have h0 : (y 0).val < 1 := (y 0).isLt
  -- on each axis: block index × block size + the coordinate inside the block
  match a with
  | ⟨0, _⟩ => show win0_0.index t (0 : Fin 4) * 1 + 1 * (y 0).val = (k 0).val; rw [e0, hk0]; omega
  | ⟨1, _⟩ => show win0_0.index t (1 : Fin 4) * 4 + 1 * (y 1).val = (k 1).val; rw [e1, hk1]; omega
  | ⟨2, _⟩ => show win0_0.index t (2 : Fin 4) * 512 + 1 * (y 2).val = (k 2).val; rw [e2, hk2]; omega
  | ⟨3, _⟩ => show win0_0.index t (3 : Fin 4) * 512 + 1 * (y 3).val = (k 3).val; rw [e3, hk3]; omega

/-- The weights' block at every point is the whole second argument. -/
theorem iblk1_apply (c : Dev nD) (t : Fin cfg0.N) (y : S4x1x3x3.Idx) :
    (iblk m c 1 t : Vec Ideal S4x1x3x3 .f32) y = (V m c main_arg1 : S4x1x3x3.Idx → EReal) y := by
  obtain ⟨-, -, -, -, e0, e1, e2, e3, -⟩ := idx_facts t
  unfold iblk
  rw [View.read_apply]
  show V m c main_arg1 _ = V m c main_arg1 _
  refine congrArg _ ?_
  funext a
  apply Fin.ext
  match a with
  | ⟨0, _⟩ => show win0_1.index t (0 : Fin 4) * 4 + 1 * (y 0).val = (y 0).val; rw [e0]; omega
  | ⟨1, _⟩ => show win0_1.index t (1 : Fin 4) * 1 + 1 * (y 1).val = (y 1).val; rw [e1]; omega
  | ⟨2, _⟩ => show win0_1.index t (2 : Fin 4) * 3 + 1 * (y 2).val = (y 2).val; rw [e2]; omega
  | ⟨3, _⟩ => show win0_1.index t (3 : Fin 4) * 3 + 1 * (y 3).val = (y 3).val; rw [e3]; omega

/-! ## What each point writes back -/

/-- What point `t` writes back is block `t` of the stencil `G` of the two argument arrays: the point's stores leave the
    one-element stencil of its input block, and that is `G` read at batch element `t`. -/
theorem flushed_eq (c : Dev nD) (t : Fin cfg0.N) :
    (dats (F := Ideal) m 0 c).flushed 2 t
      = ((cfg0.win 2).blk t).view.read (Elt Ideal) (Cert.Taps.G (V m c main_arg0) (V m c main_arg1)) := by
  rw [Value.flushed2_A, BlockValue.out_eq]
  obtain ⟨-, -, -, -, -, -, -, -, e0, e1, e2, e3⟩ := idx_facts t
  funext y
  show Cert.Taps.Gblk (iblk m c 0 t) (iblk m c 1 t) y
      = Cert.Taps.G (V m c main_arg0) (V m c main_arg1) (((cfg0.win 2).blk t).view.emb y)
  have h0 : (y 0).val < 1 := (y 0).isLt
  refine Gblk_eq_G (V m c main_arg0) (V m c main_arg1) (iblk m c 0 t) (iblk m c 1 t) t.val
    (fun y k => iblk0_apply m c t y k) (fun y => iblk1_apply m c t y) y _ ?_ ?_ ?_ ?_
  -- where the result's block sits in the array, axis by axis
  · show win0_2.index t (0 : Fin 4) * 1 + 1 * (y 0).val = t.val; rw [e0]; omega
  · show win0_2.index t (1 : Fin 4) * 4 + 1 * (y 1).val = (y 1).val; rw [e1]; omega
  · show win0_2.index t (2 : Fin 4) * 512 + 1 * (y 2).val = (y 2).val; rw [e2]; omega
  · show win0_2.index t (3 : Fin 4) * 512 + 1 * (y 3).val = (y 3).val; rw [e3]; omega

/-! ## The 32 blocks tile the array -/

/-- An index of the result array is in point `t`'s block iff each coordinate is in the block's range on its axis. -/
theorem mem_blk (t : Fin cfg0.N) (i : S32x4x512x512.Idx) :
    i ∈ ((cfg0.win 2).blk t).view.set ↔ ∀ a : Fin 4, win0_2.index t a * S1x4x512x512.size a ≤ (i a).val
      ∧ (i a).val < win0_2.index t a * S1x4x512x512.size a + S1x4x512x512.size a := by
  show i ∈ ((View.whole main_v0).slice (win0_2.rect t)).set ↔ _
  rw [View.set_slice_whole, Rect.mem_set_unit]
  exact Iff.rfl

/-- Every index of the result array is in some point's block: the point whose number is the index's batch coordinate. -/
theorem cover (i : S32x4x512x512.Idx) :
    ∃ t : Fin cfg0.N, (cfg0.win 2).flush t = true ∧ i ∈ ((cfg0.win 2).blk t).view.set := by
  have hi0 : (i 0).val < 32 := (i 0).isLt
  have hi1 : (i 1).val < 4 := (i 1).isLt
  have hi2 : (i 2).val < 512 := (i 2).isLt
  have hi3 : (i 3).val < 512 := (i 3).isLt
  have hN : cfg0.N = 32 := N_0
  refine ⟨⟨(i 0).val, by rw [hN]; exact hi0⟩, flush0_2 _, ?_⟩
  obtain ⟨-, -, -, -, -, -, -, -, e0, e1, e2, e3⟩ := idx_facts ⟨(i 0).val, by rw [hN]; exact hi0⟩
  rw [mem_blk]
  intro a
  match a with
  | ⟨0, _⟩ =>
    show win0_2.index _ (0 : Fin 4) * 1 ≤ (i 0).val ∧ (i 0).val < win0_2.index _ (0 : Fin 4) * 1 + 1
    rw [e0]
    show (i 0).val * 1 ≤ (i 0).val ∧ (i 0).val < (i 0).val * 1 + 1
    omega
  | ⟨1, _⟩ => show win0_2.index _ (1 : Fin 4) * 4 ≤ (i 1).val ∧ (i 1).val < win0_2.index _ (1 : Fin 4) * 4 + 4; rw [e1]; omega
  | ⟨2, _⟩ => show win0_2.index _ (2 : Fin 4) * 512 ≤ (i 2).val ∧ (i 2).val < win0_2.index _ (2 : Fin 4) * 512 + 512; rw [e2]; omega
  | ⟨3, _⟩ => show win0_2.index _ (3 : Fin 4) * 512 ≤ (i 3).val ∧ (i 3).val < win0_2.index _ (3 : Fin 4) * 512 + 512; rw [e3]; omega

/-! ## The whole array, and the run -/

/-- The result array after the last point is the stencil `G` of the two argument arrays, everywhere. -/
theorem final (c : Dev nD) :
    (dats (F := Ideal) m 0 c).arrAt 2 cfg0.N
      = Cert.Taps.G (m ((c : Thread nD τ).loc main_arg0)) (m ((c : Thread nD τ).loc main_arg1)) :=
  (dats m 0 c).arrAt_eq_of_cover 2 (Cert.Taps.G (V m c main_arg0) (V m c main_arg1)) (fun t _ => flushed_eq m c t) cover

/-- The kernel's run: the result array ends at the stencil `G` of the two arguments, and the arguments are unchanged. -/
theorem run : θ_run defs (onTc (τ := τ) (main (F := Ideal))) ⟨m, fun _ => 0, ρ⟩ fun r => ∀ c : Dev nD,
      r.2.mem ((c : Thread nD τ).loc main_v0)
        = Cert.Taps.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  The certificate of the depthwise 3 × 3 absolute-difference stencil (one kernel against its jnp reference).

  Both programs compute, at every `(b, c, h, q)`,
      -(0 + ∑_{i,j ∈ 0..2} |P(h + i, q + j) - W[c, 0, i, j]|),
  where `P` is plane `(b, c)` of the input with a border of one zero on every side. The reference pads the input and
  adds the nine taps row by row; the kernel, one batch element per grid point, stores each channel's plane inside a
  zero-filled scratch pad, reads three column-shifted strips of it and adds the nine taps column by column, then writes
  zero minus the sum. The two sums differ only in the order of their nine terms, and addition on the extended reals is
  commutative and associative, so the results are equal without any use of the inputs being finite.

  Proof/Taps.lean states that function (`G`); Proof/RefStencil.lean shows the reference's last stage is `G`;
  Proof/ScratchPad.lean, Proof/ChannelValue.lean and Proof/BlockValue.lean show what one grid point writes is the block
  of `G`; Proof/ArrayValue.lean assembles the 32 blocks into the whole array and names the kernel's result.
  The three frames are the generated frame runs; the idealization rewrote nothing, so `preserves` has nothing to state.
-/
import proofs.«107563_j403726926589_2_alg».proof.Defs
import proofs.«107563_j403726926589_2_alg».proof.Proof.Gen.Kernel
import proofs.«107563_j403726926589_2_alg».proof.Proof.Gen.Kernel.Skeleton
import proofs.«107563_j403726926589_2_alg».proof.Proof.Gen.Kernel.Launch
import proofs.«107563_j403726926589_2_alg».proof.Proof.Gen.Kernel.Points
import proofs.«107563_j403726926589_2_alg».proof.Proof.Gen.Kernel.Frame
import proofs.«107563_j403726926589_2_alg».proof.Proof.Gen.KernelIdeal
import proofs.«107563_j403726926589_2_alg».proof.Proof.Gen.KernelIdeal.Skeleton
import proofs.«107563_j403726926589_2_alg».proof.Proof.Gen.KernelIdeal.Launch
import proofs.«107563_j403726926589_2_alg».proof.Proof.Gen.KernelIdeal.Points
import proofs.«107563_j403726926589_2_alg».proof.Proof.Gen.KernelIdeal.Frame
import proofs.«107563_j403726926589_2_alg».proof.Proof.Gen.KernelIdeal.Value
import proofs.«107563_j403726926589_2_alg».proof.Proof.Gen.ReferenceIdeal
import proofs.«107563_j403726926589_2_alg».proof.Proof.Gen.ReferenceIdeal.Run
import proofs.«107563_j403726926589_2_alg».proof.Proof.Gen.ReferenceIdeal.Read
import proofs.«107563_j403726926589_2_alg».proof.Proof.Gen.Pre_finite_inputs
import proofs.«107563_j403726926589_2_alg».proof.Proof.Taps
import proofs.«107563_j403726926589_2_alg».proof.Proof.RefStencil
import proofs.«107563_j403726926589_2_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame run. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, the kernel's result array and the reference's are both the
    stencil `G` of those arguments. -/
theorem algebraic : Cert.algebraic_KernelIdeal_ReferenceIdeal := by
  intro m ρ m' ρ' _ hagree
  refine ⟨fun c => Cert.Taps.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v74_eq, Cert.RefStencil.ref_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
